-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S256x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : FVec F S16384x4096 .f32) (main_arg2 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S16384 : Shape := ⟨1, ![16384]⟩
abbrev S16384x1 : Shape := ⟨2, ![16384, 1]⟩
abbrev S256x4096 : Shape := ⟨2, ![256, 4096]⟩
abbrev S256x1 : Shape := ⟨2, ![256, 1]⟩
abbrev S256 : Shape := ⟨1, ![256]⟩
abbrev S1x16384 : Shape := ⟨2, ![1, 16384]⟩
abbrev S8192x16384 : Shape := ⟨2, ![8192, 16384]⟩
abbrev S1024x1024 : Shape := ⟨2, ![1024, 1024]⟩
abbrev S2048x1024 : Shape := ⟨2, ![2048, 1024]⟩
abbrev S1x2048 : Shape := ⟨2, ![1, 2048]⟩
abbrev S1024x2048 : Shape := ⟨2, ![1024, 2048]⟩

abbrev nBuf : Space → Nat
  | .hbm => 10
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384x4096, .bf16⟩
  | .hbm, ⟨4, _⟩ => ⟨S16384x1, .f32⟩
  | .hbm, ⟨5, _⟩ => ⟨S16384, .f32⟩
  | .hbm, ⟨6, _⟩ => ⟨S1x16384, .f32⟩
  | .hbm, ⟨7, _⟩ => ⟨S8192x4096, .bf16⟩
  | .hbm, ⟨8, _⟩ => ⟨S1x16384, .f32⟩
  | .hbm, ⟨9, _⟩ => ⟨S8192x16384, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x1, .f32⟩
  | .local _ .vmem, ⟨5, _⟩ => ⟨S256x1, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 8, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  natLt_1_32 : 1 < 32
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S256x1_S256x1_0_0 : ∀ a, (![0, 0] : Fin 2 → Nat) a + S256x1.size a ≤ S256x1.size a
  h_S256x1 : 0 < S256x1.numel
  shapeCasts_S16384x1_S16384 : S16384x1.ShapeCasts S16384
  bcast_S16384_S1x16384_1 : S16384.BroadcastsInDim S1x16384 (![1] : Fin 1 → Fin S1x16384.rank)
  shapeCasts_S16384_S1x16384 : S16384.ShapeCasts S1x16384
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .bf16 = 32 ∨ (Rect.block (s := S16384x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S16384x4096.size a
  hwx1_1 : ∀ i : grid1.Coords, EltTy.bits .bf16 = 32 ∨ (Rect.block (s := S16384x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x16384.size a
  hwx1_2 : ∀ i : grid1.Coords, EltTy.bits .f32 = 32 ∨ (Rect.block (s := S1x16384) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x16384.size a
  hwx1_3 : ∀ i : grid1.Coords, EltTy.bits .f32 = 32 ∨ (Rect.block (s := S1x16384) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x2048.size a ≤ S8192x16384.size a
  hwx1_4 : ∀ i : grid1.Coords, EltTy.bits .f32 = 32 ∨ (Rect.block (s := S8192x16384) S1024x2048.size (cc1_transform_4 i) (hinb1_4 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S256x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1024x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S16384x1 : Shape := ⟨2, ![16384, 1]⟩
abbrev S8192x16384 : Shape := ⟨2, ![8192, 16384]⟩
abbrev S1x16384 : Shape := ⟨2, ![1, 16384]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .i1⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x4096, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384x1, .f32⟩
  | .hbm, ⟨28, _⟩ => ⟨S16384x4096, .f32⟩
  | .hbm, ⟨29, _⟩ => ⟨S16384x4096, .f32⟩
  | .hbm, ⟨30, _⟩ => ⟨S8192x16384, .f32⟩
  | .hbm, ⟨31, _⟩ => ⟨S1x16384, .f32⟩
  | .hbm, ⟨32, _⟩ => ⟨S8192x16384, .f32⟩
  | .hbm, ⟨33, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  bcast_S_S16384 : S_.BroadcastsInDim S16384 (![] : Fin 0 → Fin S16384.rank)
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S16384x4096_S8192x16384_1_1_0_0_n_n_wf : DotDims.WF S8192x4096 S16384x4096 S8192x16384 [1] [1] [0] [0] [] []

variable [Facts₀]

def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.FrameKernel.Region0.lean ====
/-
  The quantizing region (the first kernel launch) at any float instance, entered with the core's buffers at
  contents `V`: a grid point is one block of 256 weight rows. The body reads the block and writes two blocks,
  the ternary rows and the rows' scales, each a pure function of the block read. Stated here: what each output
  staging buffer holds after the body, the body's triple, the region's proof data and its body obligation.
-/
import proofs.«162674_j51814485459451_2_alg».proof.Proof.Gen.Kernel.Launch
import proofs.«162674_j51814485459451_2_alg».proof.Proof.Gen.Kernel.Skeleton
import proofs.«162674_j51814485459451_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 4096 block and the whole 256 × 1 column, as the body's accesses spell them. -/
abbrev r0_0 : Rect S256x4096 := Rect.unit (s := S256x4096) ![0, 0] S256x4096.size inb_S256x4096_S256x4096_0_0
abbrev r0_1 : Rect S256x1 := Rect.unit (s := S256x1) ![0, 0] S256x1.size inb_S256x1_S256x1_0_0

/-- The ternary block after the body: its one store, of the block read. -/
def out0_1 (x0 : Vec F S256x4096 .f32) : Vec F S256x4096 .bf16 :=
  View.canon [⟨r0_0, k0_pay4 (View.ld x0 r0_0)⟩]

/-- The scale column after the body: its one store, of the block read. -/
def out0_2 (x0 : Vec F S256x4096 .f32) : Vec F S256x1 .f32 :=
  View.canon [⟨r0_1, k0_pay3 (View.ld x0 r0_0)⟩]

theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

set_option maxHeartbeats 1000000 in
/-- The body on whole staging memrefs, the input's at contents `x0` and the outputs' at anything, runs to the
    continuation holding the input's as it was and each output's at its function of `x0`. -/
theorem sound_kernel0 (c : Dev nD) (E : Set ℕ) (i : grid0.Coords) (arg1 : Memref sig .tc .vmem S256x4096 .f32) (harg1 : arg1.IsWhole)
    (arg2 : Memref sig .tc .vmem S256x4096 .bf16) (harg2 : arg2.IsWhole) (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__quantize_kernel i arg1 harg1 arg2 harg2 arg3 harg3) K := by
  simp only [cc0__quantize_kernel_eq_skeleton]; unfold cc0__quantize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The region's proof data on core `c`: the arrays as the region finds them; after the body at point `t` the
    input's buffer at its block and each output's at its function of that block; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.FrameKernel.Runs1.lean ====
/-
  The matrix-product region (the second kernel launch) at any float instance: what its three control cases share.
  A grid point (a, b, k) multiplies a 1024 × 1024 block of the activations with a 2048 × 1024 block of the
  ternary weights and adds the product into a 1024 × 2048 accumulator that the kernel keeps between points:
  zeroed first when k = 0, and when k = 3 scaled, biased and stored as the output block. So the body has three
  cases over the grid (k = 0; k = 1, 2; k = 3), the output window is idle except when k = 3, and the
  accumulator's contents after each point are part of the region's invariant.
-/
import proofs.«162674_j51814485459451_2_alg».proof.Proof.Gen.Kernel.Launch
import proofs.«162674_j51814485459451_2_alg».proof.Proof.Gen.Kernel.Skeleton
import proofs.«162674_j51814485459451_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, decided over the grid -/

/-- `k = 0`: the accumulator is zeroed first. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- `k = 3`: the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called on -/

/-- One staging buffer of the output window, through which its contents are stated. -/
abbrev VO1_4 : View sig .tc .vmem S1024x2048 .f32 := (Memref.whole cc1_stg4_0 : Memref sig .tc .vmem S1024x2048 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x2048 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1_0 : Memref sig .tc .vmem S1024x2048 .f32 := Memref.whole cc1_scratch0
abbrev VS1_0 : View sig .tc .vmem S1024x2048 .f32 := scM1_0.view

/-- The class invariant with the accumulator as a memref owned at some contents, the other scoped buffers
    (the first region's staging buffers) each whole at some contents beside it. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Frm

end
-- ==== Proof.FrameKernel.Run1A.lean ====
/-
  The matrix-product kernel's body run whole in the case k = 0: the accumulator is zeroed, then the block product added; the output window is left as found.
  The pieces the body's stores leave in the accumulator and in the output block are found by running it.
-/
import proofs.«162674_j51814485459451_2_alg».proof.Proof.FrameKernel.Runs1

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

set_option maxHeartbeats 1000000 in
/-- What the body's stores leave, as pieces (last first), in this case, with the proof that on whole staging memrefs
    holding the four input blocks the body runs to a continuation holding the inputs as they were, the accumulator
    with its pieces written, and the output block either untouched or with its pieces written. -/
noncomputable def kernelRun1_A (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond1_0 i) (hc1 : ¬cond1_1 i)
    (x0 : Vec F S1024x1024 .bf16) (x1 : Vec F S2048x1024 .bf16) (x2 : Vec F S1x2048 .f32) (x3 : Vec F S1x2048 .f32) :
    Σ' (L4 : List (View.Piece (Elt F) S1024x2048 .f32)), { LS0 : List (View.Piece (Elt F) S1024x2048 .f32) //
      ∀ (xi4 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8) K } := by
  refine ⟨[], ?_, fun xi4 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Frm

end
-- ==== Proof.FrameKernel.Run1B.lean ====
/-
  The matrix-product kernel's body run whole in the case k = 1 or 2: the block product is added to the accumulator; the output window is left as found.
  The pieces the body's stores leave in the accumulator and in the output block are found by running it.
-/
import proofs.«162674_j51814485459451_2_alg».proof.Proof.FrameKernel.Run1A

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

set_option maxHeartbeats 1000000 in
/-- What the body's stores leave, as pieces (last first), in this case, with the proof that on whole staging memrefs
    holding the four input blocks the body runs to a continuation holding the inputs as they were, the accumulator
    with its pieces written, and the output block either untouched or with its pieces written. -/
noncomputable def kernelRun1_B (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : ¬cond1_1 i)
    (x0 : Vec F S1024x1024 .bf16) (x1 : Vec F S2048x1024 .bf16) (x2 : Vec F S1x2048 .f32) (x3 : Vec F S1x2048 .f32) (xs0 : Vec F S1024x2048 .f32) :
    Σ' (L4 : List (View.Piece (Elt F) S1024x2048 .f32)), { LS0 : List (View.Piece (Elt F) S1024x2048 .f32) //
      ∀ (xi4 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8) K } := by
  refine ⟨[], ?_, fun xi4 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Frm

end
-- ==== Proof.FrameKernel.Run1C.lean ====
/-
  The matrix-product kernel's body run whole in the case k = 3: the block product is added to the accumulator, and the accumulator scaled and biased is stored as the output block.
  The pieces the body's stores leave in the accumulator and in the output block are found by running it.
-/
import proofs.«162674_j51814485459451_2_alg».proof.Proof.FrameKernel.Run1B

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

set_option maxHeartbeats 1000000 in
/-- What the body's stores leave, as pieces (last first), in this case, with the proof that on whole staging memrefs
    holding the four input blocks the body runs to a continuation holding the inputs as they were, the accumulator
    with its pieces written, and the output block either untouched or with its pieces written. -/
noncomputable def kernelRun1_C (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : cond1_1 i)
    (x0 : Vec F S1024x1024 .bf16) (x1 : Vec F S2048x1024 .bf16) (x2 : Vec F S1x2048 .f32) (x3 : Vec F S1x2048 .f32) (xs0 : Vec F S1024x2048 .f32) :
    Σ' (L4 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Frm

end
-- ==== Proof.FrameKernel.Region1.lean ====
/-
  The matrix-product region: what the accumulator and the output block hold after every grid point, the
  region's invariant (the accumulator at what the point before left in it), its proof data, and the body
  obligation at every point, by the three cases.
-/
import proofs.«162674_j51814485459451_2_alg».proof.Proof.FrameKernel.Run1C

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

/-- The accumulator's pieces in this case cover it. -/
theorem scover1_A_0 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond1_0 i) (hc1 : ¬cond1_1 i)
    (x0 : Vec F S1024x1024 .bf16) (x1 : Vec F S2048x1024 .bf16) (x2 : Vec F S1x2048 .f32) (x3 : Vec F S1x2048 .f32) (y : S1024x2048.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x2048.size (by sl_kernel_rfl) y

/-- What this case leaves in the accumulator: its pieces read back. -/
def sout1_A_0 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond1_0 i) (hc1 : ¬cond1_1 i)
    (x0 : Vec F S1024x1024 .bf16) (x1 : Vec F S2048x1024 .bf16) (x2 : Vec F S1x2048 .f32) (x3 : Vec F S1x2048 .f32) : Vec F S1024x2048 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

/-- What this case leaves in the output block's staging buffer (nothing is stored: a placeholder no one reads, the window being idle and not written back at these points). -/
def out1_A_4 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond1_0 i) (hc1 : ¬cond1_1 i)
    (x0 : Vec F S1024x1024 .bf16) (x1 : Vec F S2048x1024 .bf16) (x2 : Vec F S1x2048 .f32) (x3 : Vec F S1x2048 .f32) : Vec F S1024x2048 .f32 :=
  VO1_4.read (Elt F) (VO1_4.writes (Elt F) VO1_4.junk (kernelRun1_A c i arg3 harg3 arg4 harg4 arg5 harg5 arg6 harg6 arg7 harg7 arg8 harg8 hc0 hc1 x0 x1 x2 x3).1)

/-- The accumulator's pieces in this case cover it. -/
theorem scover1_B_0 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : ¬cond1_1 i)
    (x0 : Vec F S1024x1024 .bf16) (x1 : Vec F S2048x1024 .bf16) (x2 : Vec F S1x2048 .f32) (x3 : Vec F S1x2048 .f32) (xs0 : Vec F S1024x2048 .f32) (y : S1024x2048.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x2048.size (by sl_kernel_rfl) y

/-- What this case leaves in the accumulator: its pieces read back. -/
def sout1_B_0 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : ¬cond1_1 i)
    (x0 : Vec F S1024x1024 .bf16) (x1 : Vec F S2048x1024 .bf16) (x2 : Vec F S1x2048 .f32) (x3 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

/-- What this case leaves in the output block's staging buffer (nothing is stored: a placeholder no one reads, the window being idle and not written back at these points). -/
def out1_B_4 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : ¬cond1_1 i)
    (x0 : Vec F S1024x1024 .bf16) (x1 : Vec F S2048x1024 .bf16) (x2 : Vec F S1x2048 .f32) (x3 : Vec F S1x2048 .f32) (xs0 : Vec F S1024x2048 .f32) : Vec F S1024x2048 .f32 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)

/-- The accumulator's pieces in this case cover it. -/
theorem scover1_C_0 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : cond1_1 i)
    (x0 : Vec F S1024x1024 .bf16) (x1 : Vec F S2048x1024 .bf16) (x2 : Vec F S1x2048 .f32) (x3 : Vec F S1x2048 .f32) (xs0 : Vec F S1024x2048 .f32) (y : S1024x2048.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x2048.size (by sl_kernel_rfl) y

/-- What this case leaves in the accumulator: its pieces read back. -/
def sout1_C_0 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : cond1_1 i)
    (x0 : Vec F S1024x1024 .bf16) (x1 : Vec F S2048x1024 .bf16) (x2 : Vec F S1x2048 .f32) (x3 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-- The output block's pieces in this case cover it. -/
theorem cover1_C_4 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : cond1_1 i)
    (x0 : Vec F S1024x1024 .bf16) (x1 : Vec F S2048x1024 .bf16) (x2 : Vec F S1x2048 .f32) (x3 : Vec F S1x2048 .f32) (xs0 : Vec F S1024x2048 .f32) (y : S1024x2048.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x2048.size (by sl_kernel_rfl) y

/-- What this case leaves in the output block's staging buffer. -/
def out1_C_4 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : cond1_1 i)
    (x0 : Vec F S1024x1024 .bf16) (x1 : Vec F S2048x1024 .bf16) (x2 : Vec F S1x2048 .f32) (x3 : Vec F S1x2048 .f32) (xs0 : Vec F S1024x2048 .f32) : Vec F S1024x2048 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-! ## The cases' conditions at a grid point, from the point's residue modulo 4 -/

theorem cA0 (t : Fin cfg1.N) (h0 : t.val % 4 = 0) : cond1_0 (grid1.coords t) := (hcond1_0 t).mpr h0
theorem cA1 (t : Fin cfg1.N) (h0 : t.val % 4 = 0) : ¬cond1_1 (grid1.coords t) := fun h => by have := (hcond1_1 t).mp h; omega
theorem cB0 (t : Fin cfg1.N) (h0 : ¬t.val % 4 = 0) : ¬cond1_0 (grid1.coords t) := fun h => h0 ((hcond1_0 t).mp h)
theorem cB1 (t : Fin cfg1.N) (h1 : ¬t.val % 4 = 3) : ¬cond1_1 (grid1.coords t) := fun h => h1 ((hcond1_1 t).mp h)
theorem cC1 (t : Fin cfg1.N) (h1 : t.val % 4 = 3) : cond1_1 (grid1.coords t) := (hcond1_1 t).mpr h1

section
variable (V : (c : Dev nD) → (b : Ref sig .tc) → Buf (Elt F) ((c : Thread nD τ).loc b))

/-! ## What the output block and the accumulator hold after each point -/

/-- After a point with k = 0: (the output block's placeholder, the accumulator). -/
def pairA (c : Dev nD) (t : Fin cfg1.N) (h0 : t.val % 4 = 0) : Vec F S1024x2048 .f32 × Vec F S1024x2048 .f32 :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) (cA0 t h0) (cA1 t h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) (cA0 t h0) (cA1 t h0) (iblk1 V c 0 t) (iblk1 V c 1 t) (iblk1 V c 2 t) (iblk1 V c 3 t))
/-- After a point with k = 1, 2, from the accumulator `xs0` the point before left. -/
def pairB (c : Dev nD) (t : Fin cfg1.N) (h0 : ¬t.val % 4 = 0) (h1 : ¬t.val % 4 = 3) (xs0 : Vec F S1024x2048 .f32) : Vec F S1024x2048 .f32 × Vec F S1024x2048 .f32 :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (cB0 t h0) (cB1 t h1) (iblk1 V c 0 t) (iblk1 V c 1 t) (iblk1 V c 2 t) (iblk1 V c 3 t) xs0, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (cB0 t h0) (cB1 t h1) (iblk1 V c 0 t) (iblk1 V c 1 t) (iblk1 V c 2 t) (iblk1 V c 3 t) xs0)
/-- After a point with k = 3, from the accumulator `xs0` the point before left. -/
def pairC (c : Dev nD) (t : Fin cfg1.N) (h0 : ¬t.val % 4 = 0) (h1 : t.val % 4 = 3) (xs0 : Vec F S1024x2048 .f32) : Vec F S1024x2048 .f32 × Vec F S1024x2048 .f32 :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (cB0 t h0) (cC1 t h1) (iblk1 V c 0 t) (iblk1 V c 1 t) (iblk1 V c 2 t) (iblk1 V c 3 t) xs0, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (cB0 t h0) (cC1 t h1) (iblk1 V c 0 t) (iblk1 V c 1 t) (iblk1 V c 2 t) (iblk1 V c 3 t) xs0)

/-- THE ACCUMULATION: the pair (output block, accumulator) after the body at position `n`. -/
def outsAt1 (c : Dev nD) : (n : ℕ) → n < cfg1.N → Vec F S1024x2048 .f32 × Vec F S1024x2048 .f32
  | 0, hn => pairA V c ⟨0, hn⟩ (Nat.zero_mod _)
  | n + 1, hn =>
    if h0 : (n + 1) % 4 = 0 then pairA V c ⟨n + 1, hn⟩ h0
    else if h1 : (n + 1) % 4 = 3 then pairC V c ⟨n + 1, hn⟩ h0 h1 (outsAt1 c n (Nat.lt_of_succ_lt hn)).2
    else pairB V c ⟨n + 1, hn⟩ h0 h1 (outsAt1 c n (Nat.lt_of_succ_lt hn)).2

theorem outsAt1_A (c : Dev nD) (t : Fin cfg1.N) (h0 : t.val % 4 = 0) : outsAt1 V c t.val t.isLt = pairA V c t h0 := by
  obtain ⟨n, hn⟩ := t
  cases n with
  | zero => exact rfl
  | succ n => exact dif_pos h0

theorem outsAt1_B (c : Dev nD) (t : Fin cfg1.N) (h0 : ¬t.val % 4 = 0) (h1 : ¬t.val % 4 = 3) :
    outsAt1 V c t.val t.isLt = pairB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = pairC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The region's invariant before position `n`: before the first point every scoped buffer at anything; afterwards the
    accumulator at what the point before left in it, the other scoped buffers at anything, the generator register at
    some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's residue modulo 4 says which case it is in;
    the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val % 4 = 0
  · rw [Dat.leavesExact_idle (dat1 V c) 4 t (idleAt1_4_A t (cA0 t h0) (cA1 t h0)) (noFlush1_4_A t (cA0 t h0) (cA1 t h0))]
    rw [outsAt1_A V c t h0]
    unfold pairA sout1_A_0; (try dsimp only)
    by_cases hz : t.val = 0
    · rw [PhiS_castSucc V c t, PhiS_zero V c _ _ hz, PhiA1_eq]
      iintro ⟨⟨⟨HA1, HA2, HA3, HA4, HA5, HA6, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ (cA0 t h0) (cA1 t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HA1 HA2 HA3 HA4 HA5 HA6 HS0 Hg]
      · isplitl [HA1 HA2 HA3 HA4 HA5 HA6 HS0]
        · isplitl [HA1]; · iexact HA1
          isplitl [HA2]; · iexact HA2
          isplitl [HA3]; · iexact HA3
          isplitl [HA4]; · iexact HA4
          isplitl [HA5]; · iexact HA5
          isplitl [HA6]; · iexact HA6
          unfold owns; iexists _; isplitr
          swap; · iexact HS0
          ipureintro; exact View.read_writes_of_cover _ _ _ _ _ (scover1_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HA1, HA2, HA3, HA4, HA5, HA6, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ (cA0 t h0) (cA1 t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HA1 HA2 HA3 HA4 HA5 HA6 HS0 Hg]
      · isplitl [HA1 HA2 HA3 HA4 HA5 HA6 HS0]
        · isplitl [HA1]; · iexact HA1
          isplitl [HA2]; · iexact HA2
          isplitl [HA3]; · iexact HA3
          isplitl [HA4]; · iexact HA4
          isplitl [HA5]; · iexact HA5
          isplitl [HA6]; · iexact HA6
          unfold owns; iexists _; isplitr
          swap; · iexact HS0
          ipureintro; exact View.read_writes_of_cover _ _ _ _ _ (scover1_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · rw [show (dat1 V c).leavesExact 4 t = owns (c : Thread nD τ) (ms1_4 t) fullShare ((dat1 V c).after 4 t) from by
        unfold Dat.leavesExact; rw [liveAt1_4_C t (cB0 t h0) (cC1 t h1)], after1_4]
      rw [outsAt1_C V c t h0 h1]
      unfold pairC out1_C_4 sout1_C_0; (try dsimp only)
      rw [PhiS_castSucc V c t, PhiS_pos V c _ _ hz]
      iintro ⟨⟨⟨HA1, HA2, HA3, HA4, HA5, HA6, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (cB0 t h0) (cC1 t h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HA1 HA2 HA3 HA4 HA5 HA6 HS0 Hg]
      · isplitl [HA1 HA2 HA3 HA4 HA5 HA6 HS0]
        · isplitl [HA1]; · iexact HA1
          isplitl [HA2]; · iexact HA2
          isplitl [HA3]; · iexact HA3
          isplitl [HA4]; · iexact HA4
          isplitl [HA5]; · iexact HA5
          isplitl [HA6]; · iexact HA6
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4_B t (cB0 t h0) (cB1 t h1)) (noFlush1_4_B t (cB0 t h0) (cB1 t h1))]
      rw [outsAt1_B V c t h0 h1]
      unfold pairB sout1_B_0; (try dsimp only)
      rw [PhiS_castSucc V c t, PhiS_pos V c _ _ hz]
      iintro ⟨⟨⟨HA1, HA2, HA3, HA4, HA5, HA6, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (cB0 t h0) (cB1 t h1) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HA1 HA2 HA3 HA4 HA5 HA6 HS0 Hg]
      · isplitl [HA1 HA2 HA3 HA4 HA5 HA6 HS0]
        · isplitl [HA1]; · iexact HA1
          isplitl [HA2]; · iexact HA2
          isplitl [HA3]; · iexact HA3
          isplitl [HA4]; · iexact HA4
          isplitl [HA5]; · iexact HA5
          isplitl [HA6]; · iexact HA6
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HA1, HA2, HA3, HA4, HA5, HA6, HS0⟩, Hg⟩
  isplitl [HA1 HA2 HA3 HA4 HA5 HA6 HS0]
  · isplitl [HA1]; · iexact HA1
    isplitl [HA2]; · iexact HA2
    isplitl [HA3]; · iexact HA3
    isplitl [HA4]; · iexact HA4
    isplitl [HA5]; · iexact HA5
    isplitl [HA6]; · iexact HA6
    iexists _; iexact HS0
  iexact Hg

theorem hout1 (c : Dev nD) : (dat1 V c).Φ (Fin.last cfg1.N) ⊢ Pipeline.ΦA spec1 c :=
  Phi_out1 V c _ (by rw [Fin.val_last]; have : cfg1.N = 256 := N_1; omega)

end

end Cert.Kernel.Frm

end
-- ==== Proof.FrameKernel.Run.lean ====
/-
  The whole program at any float instance: the quantizing region, four host operations (the scales laid out as a
  row, the activations and the bias re-typed and re-laid), the matrix-product region. The core's unscoped buffers
  are followed from the launch through each of the three items; every weakly fair execution terminates, and at the
  end every unscoped buffer holds the last of those contents.
-/
import proofs.«162674_j51814485459451_2_alg».proof.Proof.FrameKernel.Region0
import proofs.«162674_j51814485459451_2_alg».proof.Proof.FrameKernel.Region1

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every region's proof data at its entry contents: a literal match on the region's number. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (V2 m ρ) c)
    unfold Pipeline.ΦA
    iintro ⟨Hp, -, Hr⟩
    isplitl [Hr]; · iexact Hr
    iexact Hp
  hout c := by
    rw [Pipeline.ownSems0_none]
    refine Idealize.SL.BI.BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and at the end every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.Kernel.Frm

end
-- ==== Proof.FrameKernel.Kept.lean ====
/-
  The program's arguments end as launched, at any float instance: no region's array and no host operation's
  result is an argument's buffer (the first region only reads the weights, through an input window), so the
  contents followed through the three items walk back, at an argument's buffer, to the launch memory. Beside that:
  what the followed contents are at the two regions' output arrays.
-/
import proofs.«162674_j51814485459451_2_alg».proof.Proof.FrameKernel.Run
import proofs.«162674_j51814485459451_2_alg».proof.Proof.Gen.Kernel.Regions

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The host operations leave every buffer they do not write -/

theorem W2_of_not_written (c : Dev nD) (r : Ref sig .tc) (h : r ∉ hostOps1_W) :
    W2 m ρ c (Proc.devRef .tc r) = W1 m ρ c (Proc.devRef .tc r) :=
  StableHlo.after_of_writes_sub hostOps1 _ hostOps1_writes h

/-! ## The first region's exit -/

theorem W1_main_arg0 (c : Dev nD) : W1 m ρ c (Proc.devRef .tc main_arg0) = m ((c : Thread nD τ).loc main_arg0) :=
  (W1_of_ne m ρ c main_arg0 (by decide)).trans rfl
theorem W1_main_arg2 (c : Dev nD) : W1 m ρ c (Proc.devRef .tc main_arg2) = m ((c : Thread nD τ).loc main_arg2) :=
  (W1_of_ne m ρ c main_arg2 (by decide)).trans rfl
/-- The weights are the first region's input window: read, never written back. -/
theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) :=
        (W1_arr m ρ c 0).trans (((dat0 (V0 m ρ) c).arrAt_in 0 rfl _).trans (A_eq0 (V0 m ρ) c 0))
    _ = m ((c : Thread nD τ).loc main_arg1) := rfl
theorem W1_main_v0_0 (c : Dev nD) : W1 m ρ c (Proc.devRef .tc main_v0_0) = (dat0 (V0 m ρ) c).arrAt 1 cfg0.N :=
  W1_arr m ρ c 1
theorem W1_main_v0_1 (c : Dev nD) : W1 m ρ c (Proc.devRef .tc main_v0_1) = (dat0 (V0 m ρ) c).arrAt 2 cfg0.N :=
  W1_arr m ρ c 2

/-! ## The second region's exit -/

theorem W3_main_v5 (c : Dev nD) : W3 m ρ c (Proc.devRef .tc main_v5) = (dat1 (V2 m ρ) c).arrAt 4 cfg1.N :=
  W3_arr m ρ c 4

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_not_written m ρ c main_arg0 (by decide)
    _ = m ((c : Thread nD τ).loc main_arg0) := W1_main_arg0 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_not_written m ρ c main_arg1 (by decide)
    _ = m ((c : Thread nD τ).loc main_arg1) := W1_main_arg1 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_not_written m ρ c main_arg2 (by decide)
    _ = m ((c : Thread nD τ).loc main_arg2) := W1_main_arg2 m ρ c

/-! ## The frame -/

/-- Every weakly fair execution from a memory with zero counters terminates with the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Frm

end
-- ==== Proof.FrameKernelIdeal.Region0.lean ====
/-
  The quantizing region (the first kernel launch) at any float instance, entered with the core's buffers at
  contents `V`: a grid point is one block of 256 weight rows. The body reads the block and writes two blocks,
  the ternary rows and the rows' scales, each a pure function of the block read. Stated here: what each output
  staging buffer holds after the body, the body's triple, the region's proof data and its body obligation.
-/
import proofs.«162674_j51814485459451_2_alg».proof.Proof.Gen.KernelIdeal.Launch
import proofs.«162674_j51814485459451_2_alg».proof.Proof.Gen.KernelIdeal.Skeleton
import proofs.«162674_j51814485459451_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 4096 block and the whole 256 × 1 column, as the body's accesses spell them. -/
abbrev r0_0 : Rect S256x4096 := Rect.unit (s := S256x4096) ![0, 0] S256x4096.size inb_S256x4096_S256x4096_0_0
abbrev r0_1 : Rect S256x1 := Rect.unit (s := S256x1) ![0, 0] S256x1.size inb_S256x1_S256x1_0_0

/-- The ternary block after the body: its one store, of the block read. -/
def out0_1 (x0 : Vec F S256x4096 .f32) : Vec F S256x4096 .bf16 :=
  View.canon [⟨r0_0, k0_pay4 (View.ld x0 r0_0)⟩]

/-- The scale column after the body: its one store, of the block read. -/
def out0_2 (x0 : Vec F S256x4096 .f32) : Vec F S256x1 .f32 :=
  View.canon [⟨r0_1, k0_pay3 (View.ld x0 r0_0)⟩]

theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

set_option maxHeartbeats 1000000 in
/-- The body on whole staging memrefs, the input's at contents `x0` and the outputs' at anything, runs to the
    continuation holding the input's as it was and each output's at its function of `x0`. -/
theorem sound_kernel0 (c : Dev nD) (E : Set ℕ) (i : grid0.Coords) (arg1 : Memref sig .tc .vmem S256x4096 .f32) (harg1 : arg1.IsWhole)
    (arg2 : Memref sig .tc .vmem S256x4096 .bf16) (harg2 : arg2.IsWhole) (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__quantize_kernel i arg1 harg1 arg2 harg2 arg3 harg3) K := by
  simp only [cc0__quantize_kernel_eq_skeleton]; unfold cc0__quantize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The region's proof data on core `c`: the arrays as the region finds them; after the body at point `t` the
    input's buffer at its block and each output's at its function of that block; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.FrameKernelIdeal.Runs1.lean ====
/-
  The matrix-product region (the second kernel launch) at any float instance: what its three control cases share.
  A grid point (a, b, k) multiplies a 1024 × 1024 block of the activations with a 2048 × 1024 block of the
  ternary weights and adds the product into a 1024 × 2048 accumulator that the kernel keeps between points:
  zeroed first when k = 0, and when k = 3 scaled, biased and stored as the output block. So the body has three
  cases over the grid (k = 0; k = 1, 2; k = 3), the output window is idle except when k = 3, and the
  accumulator's contents after each point are part of the region's invariant.
-/
import proofs.«162674_j51814485459451_2_alg».proof.Proof.Gen.KernelIdeal.Launch
import proofs.«162674_j51814485459451_2_alg».proof.Proof.Gen.KernelIdeal.Skeleton
import proofs.«162674_j51814485459451_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, decided over the grid -/

/-- `k = 0`: the accumulator is zeroed first. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- `k = 3`: the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called on -/

/-- One staging buffer of the output window, through which its contents are stated. -/
abbrev VO1_4 : View sig .tc .vmem S1024x2048 .f32 := (Memref.whole cc1_stg4_0 : Memref sig .tc .vmem S1024x2048 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x2048 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1_0 : Memref sig .tc .vmem S1024x2048 .f32 := Memref.whole cc1_scratch0
abbrev VS1_0 : View sig .tc .vmem S1024x2048 .f32 := scM1_0.view

/-- The class invariant with the accumulator as a memref owned at some contents, the other scoped buffers
    (the first region's staging buffers) each whole at some contents beside it. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Frm

end
-- ==== Proof.FrameKernelIdeal.Run1A.lean ====
/-
  The matrix-product kernel's body run whole in the case k = 0: the accumulator is zeroed, then the block product added; the output window is left as found.
  The pieces the body's stores leave in the accumulator and in the output block are found by running it.
-/
import proofs.«162674_j51814485459451_2_alg».proof.Proof.FrameKernelIdeal.Runs1

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave, as pieces (last first), in this case, with the proof that on whole staging memrefs
    holding the four input blocks the body runs to a continuation holding the inputs as they were, the accumulator
    with its pieces written, and the output block either untouched or with its pieces written. -/
noncomputable def kernelRun1_A (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond1_0 i) (hc1 : ¬cond1_1 i)
    (x0 : Vec F S1024x1024 .bf16) (x1 : Vec F S2048x1024 .bf16) (x2 : Vec F S1x2048 .f32) (x3 : Vec F S1x2048 .f32) :
    Σ' (L4 : List (View.Piece (Elt F) S1024x2048 .f32)), { LS0 : List (View.Piece (Elt F) S1024x2048 .f32) //
      ∀ (xi4 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8) K } := by
  refine ⟨[], ?_, fun xi4 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Frm

end
-- ==== Proof.FrameKernelIdeal.Run1B.lean ====
/-
  The matrix-product kernel's body run whole in the case k = 1 or 2: the block product is added to the accumulator; the output window is left as found.
  The pieces the body's stores leave in the accumulator and in the output block are found by running it.
-/
import proofs.«162674_j51814485459451_2_alg».proof.Proof.FrameKernelIdeal.Run1A

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave, as pieces (last first), in this case, with the proof that on whole staging memrefs
    holding the four input blocks the body runs to a continuation holding the inputs as they were, the accumulator
    with its pieces written, and the output block either untouched or with its pieces written. -/
noncomputable def kernelRun1_B (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : ¬cond1_1 i)
    (x0 : Vec F S1024x1024 .bf16) (x1 : Vec F S2048x1024 .bf16) (x2 : Vec F S1x2048 .f32) (x3 : Vec F S1x2048 .f32) (xs0 : Vec F S1024x2048 .f32) :
    Σ' (L4 : List (View.Piece (Elt F) S1024x2048 .f32)), { LS0 : List (View.Piece (Elt F) S1024x2048 .f32) //
      ∀ (xi4 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8) K } := by
  refine ⟨[], ?_, fun xi4 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Frm

end
-- ==== Proof.FrameKernelIdeal.Run1C.lean ====
/-
  The matrix-product kernel's body run whole in the case k = 3: the block product is added to the accumulator, and the accumulator scaled and biased is stored as the output block.
  The pieces the body's stores leave in the accumulator and in the output block are found by running it.
-/
import proofs.«162674_j51814485459451_2_alg».proof.Proof.FrameKernelIdeal.Run1B

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- What the body's stores leave, as pieces (last first), in this case, with the proof that on whole staging memrefs
    holding the four input blocks the body runs to a continuation holding the inputs as they were, the accumulator
    with its pieces written, and the output block either untouched or with its pieces written. -/
noncomputable def kernelRun1_C (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : cond1_1 i)
    (x0 : Vec F S1024x1024 .bf16) (x1 : Vec F S2048x1024 .bf16) (x2 : Vec F S1x2048 .f32) (x3 : Vec F S1x2048 .f32) (xs0 : Vec F S1024x2048 .f32) :
    Σ' (L4 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Frm

end
-- ==== Proof.FrameKernelIdeal.Region1.lean ====
/-
  The matrix-product region: what the accumulator and the output block hold after every grid point, the
  region's invariant (the accumulator at what the point before left in it), its proof data, and the body
  obligation at every point, by the three cases.
-/
import proofs.«162674_j51814485459451_2_alg».proof.Proof.FrameKernelIdeal.Run1C

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulator's pieces in this case cover it. -/
theorem scover1_A_0 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond1_0 i) (hc1 : ¬cond1_1 i)
    (x0 : Vec F S1024x1024 .bf16) (x1 : Vec F S2048x1024 .bf16) (x2 : Vec F S1x2048 .f32) (x3 : Vec F S1x2048 .f32) (y : S1024x2048.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x2048.size (by sl_kernel_rfl) y

/-- What this case leaves in the accumulator: its pieces read back. -/
def sout1_A_0 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond1_0 i) (hc1 : ¬cond1_1 i)
    (x0 : Vec F S1024x1024 .bf16) (x1 : Vec F S2048x1024 .bf16) (x2 : Vec F S1x2048 .f32) (x3 : Vec F S1x2048 .f32) : Vec F S1024x2048 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

/-- What this case leaves in the output block's staging buffer (nothing is stored: a placeholder no one reads, the window being idle and not written back at these points). -/
def out1_A_4 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond1_0 i) (hc1 : ¬cond1_1 i)
    (x0 : Vec F S1024x1024 .bf16) (x1 : Vec F S2048x1024 .bf16) (x2 : Vec F S1x2048 .f32) (x3 : Vec F S1x2048 .f32) : Vec F S1024x2048 .f32 :=
  VO1_4.read (Elt F) (VO1_4.writes (Elt F) VO1_4.junk (kernelRun1_A c i arg3 harg3 arg4 harg4 arg5 harg5 arg6 harg6 arg7 harg7 arg8 harg8 hc0 hc1 x0 x1 x2 x3).1)

/-- The accumulator's pieces in this case cover it. -/
theorem scover1_B_0 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : ¬cond1_1 i)
    (x0 : Vec F S1024x1024 .bf16) (x1 : Vec F S2048x1024 .bf16) (x2 : Vec F S1x2048 .f32) (x3 : Vec F S1x2048 .f32) (xs0 : Vec F S1024x2048 .f32) (y : S1024x2048.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x2048.size (by sl_kernel_rfl) y

/-- What this case leaves in the accumulator: its pieces read back. -/
def sout1_B_0 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : ¬cond1_1 i)
    (x0 : Vec F S1024x1024 .bf16) (x1 : Vec F S2048x1024 .bf16) (x2 : Vec F S1x2048 .f32) (x3 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

/-- What this case leaves in the output block's staging buffer (nothing is stored: a placeholder no one reads, the window being idle and not written back at these points). -/
def out1_B_4 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : ¬cond1_1 i)
    (x0 : Vec F S1024x1024 .bf16) (x1 : Vec F S2048x1024 .bf16) (x2 : Vec F S1x2048 .f32) (x3 : Vec F S1x2048 .f32) (xs0 : Vec F S1024x2048 .f32) : Vec F S1024x2048 .f32 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)

/-- The accumulator's pieces in this case cover it. -/
theorem scover1_C_0 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : cond1_1 i)
    (x0 : Vec F S1024x1024 .bf16) (x1 : Vec F S2048x1024 .bf16) (x2 : Vec F S1x2048 .f32) (x3 : Vec F S1x2048 .f32) (xs0 : Vec F S1024x2048 .f32) (y : S1024x2048.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x2048.size (by sl_kernel_rfl) y

/-- What this case leaves in the accumulator: its pieces read back. -/
def sout1_C_0 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : cond1_1 i)
    (x0 : Vec F S1024x1024 .bf16) (x1 : Vec F S2048x1024 .bf16) (x2 : Vec F S1x2048 .f32) (x3 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-- The output block's pieces in this case cover it. -/
theorem cover1_C_4 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : cond1_1 i)
    (x0 : Vec F S1024x1024 .bf16) (x1 : Vec F S2048x1024 .bf16) (x2 : Vec F S1x2048 .f32) (x3 : Vec F S1x2048 .f32) (xs0 : Vec F S1024x2048 .f32) (y : S1024x2048.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x2048.size (by sl_kernel_rfl) y

/-- What this case leaves in the output block's staging buffer. -/
def out1_C_4 (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : cond1_1 i)
    (x0 : Vec F S1024x1024 .bf16) (x1 : Vec F S2048x1024 .bf16) (x2 : Vec F S1x2048 .f32) (x3 : Vec F S1x2048 .f32) (xs0 : Vec F S1024x2048 .f32) : Vec F S1024x2048 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-! ## The cases' conditions at a grid point, from the point's residue modulo 4 -/

theorem cA0 (t : Fin cfg1.N) (h0 : t.val % 4 = 0) : cond1_0 (grid1.coords t) := (hcond1_0 t).mpr h0
theorem cA1 (t : Fin cfg1.N) (h0 : t.val % 4 = 0) : ¬cond1_1 (grid1.coords t) := fun h => by have := (hcond1_1 t).mp h; omega
theorem cB0 (t : Fin cfg1.N) (h0 : ¬t.val % 4 = 0) : ¬cond1_0 (grid1.coords t) := fun h => h0 ((hcond1_0 t).mp h)
theorem cB1 (t : Fin cfg1.N) (h1 : ¬t.val % 4 = 3) : ¬cond1_1 (grid1.coords t) := fun h => h1 ((hcond1_1 t).mp h)
theorem cC1 (t : Fin cfg1.N) (h1 : t.val % 4 = 3) : cond1_1 (grid1.coords t) := (hcond1_1 t).mpr h1

section
variable (V : (c : Dev nD) → (b : Ref sig .tc) → Buf (Elt F) ((c : Thread nD τ).loc b))

/-! ## What the output block and the accumulator hold after each point -/

/-- After a point with k = 0: (the output block's placeholder, the accumulator). -/
def pairA (c : Dev nD) (t : Fin cfg1.N) (h0 : t.val % 4 = 0) : Vec F S1024x2048 .f32 × Vec F S1024x2048 .f32 :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) (cA0 t h0) (cA1 t h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) (cA0 t h0) (cA1 t h0) (iblk1 V c 0 t) (iblk1 V c 1 t) (iblk1 V c 2 t) (iblk1 V c 3 t))
/-- After a point with k = 1, 2, from the accumulator `xs0` the point before left. -/
def pairB (c : Dev nD) (t : Fin cfg1.N) (h0 : ¬t.val % 4 = 0) (h1 : ¬t.val % 4 = 3) (xs0 : Vec F S1024x2048 .f32) : Vec F S1024x2048 .f32 × Vec F S1024x2048 .f32 :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (cB0 t h0) (cB1 t h1) (iblk1 V c 0 t) (iblk1 V c 1 t) (iblk1 V c 2 t) (iblk1 V c 3 t) xs0, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (cB0 t h0) (cB1 t h1) (iblk1 V c 0 t) (iblk1 V c 1 t) (iblk1 V c 2 t) (iblk1 V c 3 t) xs0)
/-- After a point with k = 3, from the accumulator `xs0` the point before left. -/
def pairC (c : Dev nD) (t : Fin cfg1.N) (h0 : ¬t.val % 4 = 0) (h1 : t.val % 4 = 3) (xs0 : Vec F S1024x2048 .f32) : Vec F S1024x2048 .f32 × Vec F S1024x2048 .f32 :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (cB0 t h0) (cC1 t h1) (iblk1 V c 0 t) (iblk1 V c 1 t) (iblk1 V c 2 t) (iblk1 V c 3 t) xs0, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (cB0 t h0) (cC1 t h1) (iblk1 V c 0 t) (iblk1 V c 1 t) (iblk1 V c 2 t) (iblk1 V c 3 t) xs0)

/-- THE ACCUMULATION: the pair (output block, accumulator) after the body at position `n`. -/
def outsAt1 (c : Dev nD) : (n : ℕ) → n < cfg1.N → Vec F S1024x2048 .f32 × Vec F S1024x2048 .f32
  | 0, hn => pairA V c ⟨0, hn⟩ (Nat.zero_mod _)
  | n + 1, hn =>
    if h0 : (n + 1) % 4 = 0 then pairA V c ⟨n + 1, hn⟩ h0
    else if h1 : (n + 1) % 4 = 3 then pairC V c ⟨n + 1, hn⟩ h0 h1 (outsAt1 c n (Nat.lt_of_succ_lt hn)).2
    else pairB V c ⟨n + 1, hn⟩ h0 h1 (outsAt1 c n (Nat.lt_of_succ_lt hn)).2

theorem outsAt1_A (c : Dev nD) (t : Fin cfg1.N) (h0 : t.val % 4 = 0) : outsAt1 V c t.val t.isLt = pairA V c t h0 := by
  obtain ⟨n, hn⟩ := t
  cases n with
  | zero => exact rfl
  | succ n => exact dif_pos h0

theorem outsAt1_B (c : Dev nD) (t : Fin cfg1.N) (h0 : ¬t.val % 4 = 0) (h1 : ¬t.val % 4 = 3) :
    outsAt1 V c t.val t.isLt = pairB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = pairC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The region's invariant before position `n`: before the first point every scoped buffer at anything; afterwards the
    accumulator at what the point before left in it, the other scoped buffers at anything, the generator register at
    some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's residue modulo 4 says which case it is in;
    the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val % 4 = 0
  · rw [Dat.leavesExact_idle (dat1 V c) 4 t (idleAt1_4_A t (cA0 t h0) (cA1 t h0)) (noFlush1_4_A t (cA0 t h0) (cA1 t h0))]
    rw [outsAt1_A V c t h0]
    unfold pairA sout1_A_0; (try dsimp only)
    by_cases hz : t.val = 0
    · rw [PhiS_castSucc V c t, PhiS_zero V c _ _ hz, PhiA1_eq]
      iintro ⟨⟨⟨HA1, HA2, HA3, HA4, HA5, HA6, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ (cA0 t h0) (cA1 t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HA1 HA2 HA3 HA4 HA5 HA6 HS0 Hg]
      · isplitl [HA1 HA2 HA3 HA4 HA5 HA6 HS0]
        · isplitl [HA1]; · iexact HA1
          isplitl [HA2]; · iexact HA2
          isplitl [HA3]; · iexact HA3
          isplitl [HA4]; · iexact HA4
          isplitl [HA5]; · iexact HA5
          isplitl [HA6]; · iexact HA6
          unfold owns; iexists _; isplitr
          swap; · iexact HS0
          ipureintro; exact View.read_writes_of_cover _ _ _ _ _ (scover1_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HA1, HA2, HA3, HA4, HA5, HA6, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ (cA0 t h0) (cA1 t h0) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HA1 HA2 HA3 HA4 HA5 HA6 HS0 Hg]
      · isplitl [HA1 HA2 HA3 HA4 HA5 HA6 HS0]
        · isplitl [HA1]; · iexact HA1
          isplitl [HA2]; · iexact HA2
          isplitl [HA3]; · iexact HA3
          isplitl [HA4]; · iexact HA4
          isplitl [HA5]; · iexact HA5
          isplitl [HA6]; · iexact HA6
          unfold owns; iexists _; isplitr
          swap; · iexact HS0
          ipureintro; exact View.read_writes_of_cover _ _ _ _ _ (scover1_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · rw [show (dat1 V c).leavesExact 4 t = owns (c : Thread nD τ) (ms1_4 t) fullShare ((dat1 V c).after 4 t) from by
        unfold Dat.leavesExact; rw [liveAt1_4_C t (cB0 t h0) (cC1 t h1)], after1_4]
      rw [outsAt1_C V c t h0 h1]
      unfold pairC out1_C_4 sout1_C_0; (try dsimp only)
      rw [PhiS_castSucc V c t, PhiS_pos V c _ _ hz]
      iintro ⟨⟨⟨HA1, HA2, HA3, HA4, HA5, HA6, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (cB0 t h0) (cC1 t h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HA1 HA2 HA3 HA4 HA5 HA6 HS0 Hg]
      · isplitl [HA1 HA2 HA3 HA4 HA5 HA6 HS0]
        · isplitl [HA1]; · iexact HA1
          isplitl [HA2]; · iexact HA2
          isplitl [HA3]; · iexact HA3
          isplitl [HA4]; · iexact HA4
          isplitl [HA5]; · iexact HA5
          isplitl [HA6]; · iexact HA6
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4_B t (cB0 t h0) (cB1 t h1)) (noFlush1_4_B t (cB0 t h0) (cB1 t h1))]
      rw [outsAt1_B V c t h0 h1]
      unfold pairB sout1_B_0; (try dsimp only)
      rw [PhiS_castSucc V c t, PhiS_pos V c _ _ hz]
      iintro ⟨⟨⟨HA1, HA2, HA3, HA4, HA5, HA6, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (cB0 t h0) (cB1 t h1) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HA1 HA2 HA3 HA4 HA5 HA6 HS0 Hg]
      · isplitl [HA1 HA2 HA3 HA4 HA5 HA6 HS0]
        · isplitl [HA1]; · iexact HA1
          isplitl [HA2]; · iexact HA2
          isplitl [HA3]; · iexact HA3
          isplitl [HA4]; · iexact HA4
          isplitl [HA5]; · iexact HA5
          isplitl [HA6]; · iexact HA6
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HA1, HA2, HA3, HA4, HA5, HA6, HS0⟩, Hg⟩
  isplitl [HA1 HA2 HA3 HA4 HA5 HA6 HS0]
  · isplitl [HA1]; · iexact HA1
    isplitl [HA2]; · iexact HA2
    isplitl [HA3]; · iexact HA3
    isplitl [HA4]; · iexact HA4
    isplitl [HA5]; · iexact HA5
    isplitl [HA6]; · iexact HA6
    iexists _; iexact HS0
  iexact Hg

theorem hout1 (c : Dev nD) : (dat1 V c).Φ (Fin.last cfg1.N) ⊢ Pipeline.ΦA spec1 c :=
  Phi_out1 V c _ (by rw [Fin.val_last]; have : cfg1.N = 256 := N_1; omega)

end

end Cert.KernelIdeal.Frm

end
-- ==== Proof.FrameKernelIdeal.Run.lean ====
/-
  The whole program at any float instance: the quantizing region, four host operations (the scales laid out as a
  row, the activations and the bias re-typed and re-laid), the matrix-product region. The core's unscoped buffers
  are followed from the launch through each of the three items; every weakly fair execution terminates, and at the
  end every unscoped buffer holds the last of those contents.
-/
import proofs.«162674_j51814485459451_2_alg».proof.Proof.FrameKernelIdeal.Region0
import proofs.«162674_j51814485459451_2_alg».proof.Proof.FrameKernelIdeal.Region1

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Every region's proof data at its entry contents: a literal match on the region's number. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (V2 m ρ) c)
    unfold Pipeline.ΦA
    iintro ⟨Hp, -, Hr⟩
    isplitl [Hr]; · iexact Hr
    iexact Hp
  hout c := by
    rw [Pipeline.ownSems0_none]
    refine Idealize.SL.BI.BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and at the end every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Frm

end
-- ==== Proof.FrameKernelIdeal.Kept.lean ====
/-
  The program's arguments end as launched, at any float instance: no region's array and no host operation's
  result is an argument's buffer (the first region only reads the weights, through an input window), so the
  contents followed through the three items walk back, at an argument's buffer, to the launch memory. Beside that:
  what the followed contents are at the two regions' output arrays.
-/
import proofs.«162674_j51814485459451_2_alg».proof.Proof.FrameKernelIdeal.Run
import proofs.«162674_j51814485459451_2_alg».proof.Proof.Gen.KernelIdeal.Regions

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations leave every buffer they do not write -/

theorem W2_of_not_written (c : Dev nD) (r : Ref sig .tc) (h : r ∉ hostOps1_W) :
    W2 m ρ c (Proc.devRef .tc r) = W1 m ρ c (Proc.devRef .tc r) :=
  StableHlo.after_of_writes_sub hostOps1 _ hostOps1_writes h

/-! ## The first region's exit -/

theorem W1_main_arg0 (c : Dev nD) : W1 m ρ c (Proc.devRef .tc main_arg0) = m ((c : Thread nD τ).loc main_arg0) :=
  (W1_of_ne m ρ c main_arg0 (by decide)).trans rfl
theorem W1_main_arg2 (c : Dev nD) : W1 m ρ c (Proc.devRef .tc main_arg2) = m ((c : Thread nD τ).loc main_arg2) :=
  (W1_of_ne m ρ c main_arg2 (by decide)).trans rfl
/-- The weights are the first region's input window: read, never written back. -/
theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) :=
        (W1_arr m ρ c 0).trans (((dat0 (V0 m ρ) c).arrAt_in 0 rfl _).trans (A_eq0 (V0 m ρ) c 0))
    _ = m ((c : Thread nD τ).loc main_arg1) := rfl
theorem W1_main_v0_0 (c : Dev nD) : W1 m ρ c (Proc.devRef .tc main_v0_0) = (dat0 (V0 m ρ) c).arrAt 1 cfg0.N :=
  W1_arr m ρ c 1
theorem W1_main_v0_1 (c : Dev nD) : W1 m ρ c (Proc.devRef .tc main_v0_1) = (dat0 (V0 m ρ) c).arrAt 2 cfg0.N :=
  W1_arr m ρ c 2

/-! ## The second region's exit -/

theorem W3_main_v5 (c : Dev nD) : W3 m ρ c (Proc.devRef .tc main_v5) = (dat1 (V2 m ρ) c).arrAt 4 cfg1.N :=
  W3_arr m ρ c 4

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_not_written m ρ c main_arg0 (by decide)
    _ = m ((c : Thread nD τ).loc main_arg0) := W1_main_arg0 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_not_written m ρ c main_arg1 (by decide)
    _ = m ((c : Thread nD τ).loc main_arg1) := W1_main_arg1 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_not_written m ρ c main_arg2 (by decide)
    _ = m ((c : Thread nD τ).loc main_arg2) := W1_main_arg2 m ρ c

/-! ## The frame -/

/-- Every weakly fair execution from a memory with zero counters terminates with the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Frm

end
-- ==== Proof.ClaimsFrames.lean ====
/-
  Four of the five claims: each program runs to the end with its argument arrays unchanged, and the one rewrite
  of the ideal pass (the sign of a word as a comparison with zero) is the rule's own statement.
  The two kernel programs' frames come from one run each, in which the core's buffers are followed through the
  quantizing region, the host operations and the matrix-product region; the reference's frame is its run with the
  result dropped.
-/
import proofs.«162674_j51814485459451_2_alg».proof.Defs
import proofs.«162674_j51814485459451_2_alg».proof.Proof.Gen.Kernel
import proofs.«162674_j51814485459451_2_alg».proof.Proof.Gen.KernelIdeal
import proofs.«162674_j51814485459451_2_alg».proof.Proof.Gen.ReferenceIdeal
import proofs.«162674_j51814485459451_2_alg».proof.Proof.Gen.Pre_finite_inputs
import proofs.«162674_j51814485459451_2_alg».proof.Proof.Gen.ReferenceIdeal.Run
import proofs.«162674_j51814485459451_2_alg».proof.Proof.FrameKernel.Kept
import proofs.«162674_j51814485459451_2_alg».proof.Proof.FrameKernelIdeal.Kept

noncomputable section

namespace Cert.Proof.Parts

open Idealize.ShloMosaic Idealize.SL.Sem

theorem frame_k : Cert.frame_Kernel := fun m ρ _ => Cert.Kernel.Frm.frame (F := Bits) m ρ

theorem frame_ki : Cert.frame_KernelIdeal := fun m ρ _ => Cert.KernelIdeal.Frm.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal :=
  IdealRules.sign_bit.statement Cert.KernelIdeal.S256x4096 .f32

end Cert.Proof.Parts

end
-- ==== Proof.Spec.lean ====
import Idealize.ShloMosaic.PureOps.Ideal
import Mathlib.Algebra.BigOperators.Fin

/-!
# Ternary linear layer: the specification, one weight row at a time

A weight row `wr : Fin 4096 → EReal` is quantized to the ternary row `sign · mask` and one scale:
the mask keeps the entries whose magnitude exceeds `0.05 · mean |wr|`, the scale is the mean magnitude
of the kept entries (their count clamped below by one). An output entry pairs one row `xr` of the
activations with one weight row and one bias word. Two arrangements of that entry are stated:
the reference's (each ternary weight scaled before the contraction) and the kernel's (the contraction
accumulated over four consecutive blocks of 1024 from zero, then scaled and biased).
The float words are kept as their bit patterns; the same word stands on both sides.
-/

noncomputable section

namespace Cert.Tern

open Idealize.ShloMosaic

/-- `|wr i|`, as the maximum of the entry and its negation. -/
def absR (wr : Fin 4096 → EReal) (i : Fin 4096) : EReal := max (wr i) (-(wr i))

/-- The row's threshold: the word `0.05` times the row's mean magnitude (the sum over `4096.0`). -/
def thrR (wr : Fin 4096 → EReal) : EReal :=
  Ideal.ofBits .f32 0x3D4CCCCD#32 * Ideal.div (∑ i, absR wr i) (Ideal.ofBits .f32 0x45800000#32)

/-- `1` where the magnitude exceeds the threshold, `0` elsewhere. -/
def maskR (wr : Fin 4096 → EReal) (i : Fin 4096) : EReal := if thrR wr < absR wr i then 1 else 0

/-- The ternary weight: the entry's sign where kept, `0` elsewhere. -/
def ternR (wr : Fin 4096 → EReal) (i : Fin 4096) : EReal := Ideal.sign (wr i) * maskR wr i

/-- The number of kept entries, at least the word `1.0`. -/
def cntR (wr : Fin 4096 → EReal) : EReal := max (∑ i, maskR wr i) (Ideal.ofBits .f32 0x3F800000#32)

/-- The row's scale: the kept magnitudes' sum over their count. -/
def scaleR (wr : Fin 4096 → EReal) : EReal := Ideal.div (∑ i, absR wr i * maskR wr i) (cntR wr)

/-- The reference's entry: `Σ_i x_i · (t_i · s) + b`. -/
def refAt (xr wr : Fin 4096 → EReal) (b : EReal) : EReal := (∑ i, xr i * (ternR wr i * scaleR wr)) + b

/-- Block `n` of a contraction over 4096 terms cut into four runs of 1024. -/
def blockSum (f : Fin 4096 → EReal) (n : Fin 4) : EReal :=
  ∑ k : Fin 1024, f ⟨n.val * 1024 + k.val, by have := n.isLt; have := k.isLt; omega⟩

/-- The four blocks added one after the other, from zero. -/
def accAt (f : Fin 4096 → EReal) : EReal :=
  (((0 + blockSum f 0) + blockSum f 1) + blockSum f 2) + blockSum f 3

/-- The kernel's entry: `(Σ over four blocks of x_i · t_i) · s + b`. -/
def kerAt (xr wr : Fin 4096 → EReal) (b : EReal) : EReal :=
  accAt (fun i => xr i * ternR wr i) * scaleR wr + b

end Cert.Tern

end
-- ==== Proof.RefSide.lean ====
import proofs.«162674_j51814485459451_2_alg».proof.Proof.Gen.ReferenceIdeal.Read
import proofs.«162674_j51814485459451_2_alg».proof.Proof.Spec
import Idealize.ShloMosaic.Lib.ValueIdx
import Idealize.ShloMosaic.Lib.Pipeline.Value
import Idealize.ShloMosaic.PureOps.Ideal.Laws

/-! The reference's result, read index by index.

Every stage of the reference is read at an index built from literal coordinates: a weight row `q`, a position `k` in it,
an activation row `p`. The stages that depend on one weight row only (magnitude, threshold, mask, ternary weight,
count, scale) are the specification's functions of that row; the contraction and the bias then give the
specification's entry. -/

noncomputable section

namespace Cert.ReferenceIdeal.RefSide

open Cert.ReferenceIdeal Cert.ReferenceIdeal.Gen Cert.ReferenceIdeal.Read Idealize.ShloMosaic Idealize.ShloMosaic.ValueIdx
open Cert.Tern

/-- Row `q` of the weights. -/
abbrev wrow (w : FVec Ideal S16384x4096 .f32) (q : Fin 16384) : Fin 4096 → EReal := fun k => w (ix2 q k)

/-! ### The index maps of the stages, at literal coordinates -/

theorem idx_v1 (q : Fin 16384) (k : Fin 4096) : idx_main_v1 (ix1 q) k = ix2 q k := by
  funext a; match a with | ⟨0, _⟩ => rfl | ⟨1, _⟩ => rfl
theorem idx_v12 (q : Fin 16384) (k : Fin 4096) : idx_main_v12 (ix1 q) k = ix2 q k := by
  funext a; match a with | ⟨0, _⟩ => rfl | ⟨1, _⟩ => rfl
theorem idx_v16 (q : Fin 16384) (k : Fin 4096) : idx_main_v16 (ix1 q) k = ix2 q k := by
  funext a; match a with | ⟨0, _⟩ => rfl | ⟨1, _⟩ => rfl
theorem idx_v2 (q : Fin 16384) : idx_main_v2 (ix2 q (0 : Fin 1)) = ix1 q := by
  funext a; match a with | ⟨0, _⟩ => rfl
theorem idx_v18 (q : Fin 16384) : idx_main_v18 (ix2 q (0 : Fin 1)) = ix1 q := by
  funext a; match a with | ⟨0, _⟩ => rfl
theorem idx_v7 (q : Fin 16384) (k : Fin 4096) : idx_main_v7 (ix2 q k) = ix2 q (0 : Fin 1) := by
  funext a; match a with | ⟨0, _⟩ => rfl | ⟨1, _⟩ => rfl
theorem idx_v19 (q : Fin 16384) (k : Fin 4096) : idx_main_v19 (ix2 q k) = ix2 q (0 : Fin 1) := by
  funext a; match a with | ⟨0, _⟩ => rfl | ⟨1, _⟩ => rfl
theorem lidx_v21 (p : Fin 8192) (q : Fin 16384) (k : Fin 4096) : lidx_main_v21 (ix2 p q) k = ix2 p k := by
  funext a; match a with | ⟨0, _⟩ => rfl | ⟨1, _⟩ => rfl
theorem ridx_v21 (p : Fin 8192) (q : Fin 16384) (k : Fin 4096) : ridx_main_v21 (ix2 p q) k = ix2 q k := by
  funext a; match a with | ⟨0, _⟩ => rfl | ⟨1, _⟩ => rfl
theorem idx_v23 (p : Fin 8192) (q : Fin 16384) : idx_main_v23 (ix2 p q) = ix2 (0 : Fin 1) q := by
  funext a; match a with | ⟨0, _⟩ => rfl | ⟨1, _⟩ => rfl
theorem idx_v22 (q : Fin 16384) : idx_main_v22 (ix2 (0 : Fin 1) q) = ix1 q := by
  funext a; match a with | ⟨0, _⟩ => rfl

/-! ### The stages of one weight row -/

/-- The magnitude. -/
theorem v0_at (w : FVec Ideal S16384x4096 .f32) (q : Fin 16384) (k : Fin 4096) :
    val_main_v0 (F := Ideal) w (ix2 q k) = absR (wrow w q) k := rfl

/-- The row's sum of magnitudes. -/
theorem v1_at (w : FVec Ideal S16384x4096 .f32) (q : Fin 16384) :
    val_main_v1 (F := Ideal) w (ix1 q) = ∑ k, absR (wrow w q) k := by
  rw [val_main_v1_apply, val_main_cst_apply, Ideal.ofBits_def, Ideal.ofBits_zero_f32, zero_add]
  exact Finset.sum_congr rfl fun k _ => by rw [idx_v1, v0_at]

/-- The threshold, kept as a column. -/
theorem v6_at (w : FVec Ideal S16384x4096 .f32) (q : Fin 16384) :
    val_main_v6 (F := Ideal) w (ix2 q (0 : Fin 1)) = thrR (wrow w q) := by
  rw [val_main_v6_apply, val_main_v5_apply, val_main_cst_1_apply, val_main_v4_apply, val_main_v2_apply,
    val_main_v3_apply, val_main_cst_0_apply, idx_v2, v1_at]
  rfl

/-- The threshold, at every position of the row. -/
theorem v7_at (w : FVec Ideal S16384x4096 .f32) (q : Fin 16384) (k : Fin 4096) :
    val_main_v7 (F := Ideal) w (ix2 q k) = thrR (wrow w q) := by
  rw [val_main_v7_apply, idx_v7, v6_at]

/-- The one-bit compare word converted to a float is the mask's `if`. -/
theorem uitofp_cmp_ogt (a t : EReal) :
    FloatOps.uitofp (F := Ideal) .f32 (FloatOps.cmpf (F := Ideal) (φ := .f32) .ogt a t) = if t < a then 1 else 0 := by
  show (((Ideal.cmp .ogt a t).toNat : ℝ) : EReal) = _
  by_cases h : t < a
  · simp [Ideal.cmp, h]
  · simp [Ideal.cmp, h]

/-- The mask. -/
theorem v9_at (w : FVec Ideal S16384x4096 .f32) (q : Fin 16384) (k : Fin 4096) :
    val_main_v9 (F := Ideal) w (ix2 q k) = maskR (wrow w q) k := by
  rw [val_main_v9_apply, val_main_v8_apply, v0_at, v7_at, uitofp_cmp_ogt]
  rfl

/-- The ternary weight. -/
theorem v11_at (w : FVec Ideal S16384x4096 .f32) (q : Fin 16384) (k : Fin 4096) :
    val_main_v11 (F := Ideal) w (ix2 q k) = ternR (wrow w q) k := by
  rw [val_main_v11_apply, val_main_v10_apply, v9_at]
  rfl

/-- The number of kept entries. -/
theorem v12_at (w : FVec Ideal S16384x4096 .f32) (q : Fin 16384) :
    val_main_v12 (F := Ideal) w (ix1 q) = ∑ k, maskR (wrow w q) k := by
  rw [val_main_v12_apply, val_main_cst_2_apply, Ideal.ofBits_def, Ideal.ofBits_zero_f32, zero_add]
  exact Finset.sum_congr rfl fun k _ => by rw [idx_v12, v9_at]

/-- The count clamped below by one. -/
theorem v14_at (w : FVec Ideal S16384x4096 .f32) (q : Fin 16384) :
    val_main_v14 (F := Ideal) w (ix1 q) = cntR (wrow w q) := by
  rw [val_main_v14_apply, v12_at, val_main_v13_apply, val_main_cst_3_apply]
  rfl

/-- The kept magnitudes' sum. -/
theorem v16_at (w : FVec Ideal S16384x4096 .f32) (q : Fin 16384) :
    val_main_v16 (F := Ideal) w (ix1 q) = ∑ k, absR (wrow w q) k * maskR (wrow w q) k := by
  rw [val_main_v16_apply, val_main_cst_4_apply, Ideal.ofBits_def, Ideal.ofBits_zero_f32, zero_add]
  exact Finset.sum_congr rfl fun k _ => by rw [idx_v16, val_main_v15_apply, v0_at, v9_at]; rfl

/-- The scale. -/
theorem v17_at (w : FVec Ideal S16384x4096 .f32) (q : Fin 16384) :
    val_main_v17 (F := Ideal) w (ix1 q) = scaleR (wrow w q) := by
  rw [val_main_v17_apply, v16_at, v14_at]
  rfl

/-- The scale, at every position of the row. -/
theorem v19_at (w : FVec Ideal S16384x4096 .f32) (q : Fin 16384) (k : Fin 4096) :
    val_main_v19 (F := Ideal) w (ix2 q k) = scaleR (wrow w q) := by
  rw [val_main_v19_apply, idx_v19, val_main_v18_apply, idx_v18, v17_at]

/-- The scaled ternary weight. -/
theorem v20_at (w : FVec Ideal S16384x4096 .f32) (q : Fin 16384) (k : Fin 4096) :
    val_main_v20 (F := Ideal) w (ix2 q k) = ternR (wrow w q) k * scaleR (wrow w q) := by
  rw [val_main_v20_apply, v11_at, v19_at]
  rfl

/-! ### The entry -/

/-- The contraction of activation row `p` with the scaled ternary row `q`. -/
theorem v21_at (x : FVec Ideal S8192x4096 .f32) (w : FVec Ideal S16384x4096 .f32) (p : Fin 8192) (q : Fin 16384) :
    val_main_v21 (F := Ideal) x w (ix2 p q) = ∑ k, x (ix2 p k) * (ternR (wrow w q) k * scaleR (wrow w q)) := by
  rw [val_main_v21_apply]
  exact Finset.sum_congr rfl fun k _ => by rw [lidx_v21, ridx_v21, v20_at]

/-- The bias, at every activation row. -/
theorem v23_at (bias : FVec Ideal S16384 .f32) (p : Fin 8192) (q : Fin 16384) :
    val_main_v23 (F := Ideal) bias (ix2 p q) = bias (ix1 q) := by
  rw [val_main_v23_apply, idx_v23, val_main_v22_apply, idx_v22]

/-- The reference's result at `(p, q)` is the specification's entry of activation row `p`, weight row `q` and bias word `q`. -/
theorem result_at (x : FVec Ideal S8192x4096 .f32) (w : FVec Ideal S16384x4096 .f32) (bias : FVec Ideal S16384 .f32)
    (p : Fin 8192) (q : Fin 16384) :
    val_main_v24 (F := Ideal) x w bias (ix2 p q)
      = refAt (fun k => x (ix2 p k)) (fun k => w (ix2 q k)) (bias (ix1 q)) := by
  rw [val_main_v24_apply, v21_at, v23_at]
  rfl

/-- The same, as a function of the result's index. -/
theorem result_eq (x : FVec Ideal S8192x4096 .f32) (w : FVec Ideal S16384x4096 .f32) (bias : FVec Ideal S16384 .f32) :
    val_main_v24 (F := Ideal) x w bias
      = fun j : S8192x16384.Idx => refAt (fun k => x (ix2 (n0 := 8192) (j 0) k)) (fun k => w (ix2 (n0 := 16384) (j 1) k))
          (bias (ix1 (n := 16384) (j 1))) := by
  funext j
  obtain ⟨p, q, rfl⟩ : ∃ (p : Fin 8192) (q : Fin 16384), j = ix2 p q := ⟨j 0, j 1, eq_ix2 j⟩
  exact result_at x w bias p q

end Cert.ReferenceIdeal.RefSide

end
-- ==== Proof.Law.lean ====
import proofs.«162674_j51814485459451_2_alg».proof.Proof.Spec
import Mathlib

/-!
# The kernel's arrangement of an entry equals the reference's, on real rows

Moving the row's scale across the contraction is distributivity, which fails at the infinities of
the extended reals; on real rows every ternary weight and the scale are real, and the identity is the
real one. Regrouping the contraction into four consecutive blocks needs no reality: addition of
extended reals is commutative and associative.
-/

noncomputable section

namespace Cert.Tern

open Idealize.ShloMosaic

/-- The word `0x3F800000` denotes one. -/
theorem ofBits_one_f32 : Ideal.ofBits .f32 0x3F800000#32 = 1 := by
  simp [Ideal.ofBits, Ideal.ieee, -EReal.coe_mul]
  norm_num

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem sum_real {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl (fun i _ => hg i)⟩

/-- The magnitude of a real entry is real. -/
theorem absR_real (wr : Fin 4096 → EReal) (hw : ∀ i, ∃ r : ℝ, wr i = (r : EReal)) (i : Fin 4096) :
    ∃ r : ℝ, absR wr i = (r : EReal) := by
  obtain ⟨r, hr⟩ := hw i
  refine ⟨max r (-r), ?_⟩
  rw [absR, hr, ← EReal.coe_neg]
  exact (EReal.coe_strictMono.monotone.map_max).symm

/-- The mask is zero or one, so real, on any row. -/
theorem maskR_real (wr : Fin 4096 → EReal) (i : Fin 4096) : ∃ r : ℝ, maskR wr i = (r : EReal) := by
  unfold maskR
  split
  · exact ⟨1, by simp⟩
  · exact ⟨0, by simp⟩

/-- A ternary weight of a real row is real: the sign of a real is `-1`, `0` or `1`. -/
theorem ternR_real (wr : Fin 4096 → EReal) (hw : ∀ i, ∃ r : ℝ, wr i = (r : EReal)) (i : Fin 4096) :
    ∃ r : ℝ, ternR wr i = (r : EReal) := by
  obtain ⟨r, hr⟩ := hw i
  obtain ⟨m, hm⟩ := maskR_real wr i
  exact ⟨(SignType.sign r : ℝ) * m, by rw [ternR, hr, hm, Ideal.sign_coe, EReal.coe_mul]⟩

/-- The scale of a real row is real: a real sum divided by a real that is at least one. -/
theorem scaleR_real (wr : Fin 4096 → EReal) (hw : ∀ i, ∃ r : ℝ, wr i = (r : EReal)) :
    ∃ r : ℝ, scaleR wr = (r : EReal) := by
  obtain ⟨m, hm⟩ := sum_real Finset.univ (maskR wr) (maskR_real wr)
  obtain ⟨a, ha⟩ := sum_real Finset.univ (fun i => absR wr i * maskR wr i) (fun i => by
    obtain ⟨p, hp⟩ := absR_real wr hw i
    obtain ⟨q, hq⟩ := maskR_real wr i
    exact ⟨p * q, by rw [hp, hq, EReal.coe_mul]⟩)
  have hc : cntR wr = ((max m 1 : ℝ) : EReal) := by
    rw [cntR, hm, ofBits_one_f32, ← EReal.coe_one]
    exact (EReal.coe_strictMono.monotone.map_max).symm
  have hne : max m 1 ≠ 0 := ne_of_gt (lt_of_lt_of_le one_pos (le_max_right m 1))
  exact ⟨a * (1 / max m 1), by rw [scaleR, ha, hc, Ideal.div_coe hne, EReal.coe_mul]⟩

/-- Four consecutive blocks of 1024, added from zero, are the whole sum over 4096. -/
theorem accAt_eq_sum (f : Fin 4096 → EReal) : accAt f = ∑ i, f i := by
  have e : (∑ i : Fin 4096, f i)
      = ∑ p : Fin 4 × Fin 1024, f ⟨p.1.val * 1024 + p.2.val, by have := p.1.isLt; have := p.2.isLt; omega⟩ := by
    refine (Fintype.sum_equiv (finProdFinEquiv (m := 4) (n := 1024)) _ _ ?_).symm
    intro p
    congr 1
    ext
    simp [finProdFinEquiv]
    ring
  rw [e, Fintype.sum_prod_type, Fin.sum_univ_four]
  simp [accAt, blockSum]

/-- On real rows the kernel's entry is the reference's. -/
theorem kerAt_eq_refAt (xr wr : Fin 4096 → EReal) (b : EReal)
    (hx : ∀ i, ∃ r : ℝ, xr i = (r : EReal)) (hw : ∀ i, ∃ r : ℝ, wr i = (r : EReal)) :
    kerAt xr wr b = refAt xr wr b := by
  choose x' hx' using hx
  choose t' ht' using fun i => ternR_real wr hw i
  obtain ⟨σ, hσ⟩ := scaleR_real wr hw
  unfold kerAt refAt
  rw [accAt_eq_sum]
  congr 1
  simp only [hx', ht', hσ]
  simp only [← EReal.coe_mul]
  rw [← coe_sum, ← coe_sum, ← EReal.coe_mul, Finset.sum_mul]
  simp only [mul_assoc]

end Cert.Tern

end
-- ==== Proof.Finite.lean ====
import proofs.«162674_j51814485459451_2_alg».proof.Defs
import Idealize.ShloMosaic.Lib.ReduceAll

/-!
# From the precondition to real entries

The precondition is the conjunction of three `all (|·| < +∞)`, one per argument array. Each conjunct gives, at every
index, that the entry's magnitude is below `⊤`; an extended real whose magnitude is below `⊤` is neither infinity.
-/

noncomputable section

namespace Cert.Tern.Finite

open Idealize.ShloMosaic

/-- The rank-zero shape has one index. -/
instance : Subsingleton Cert.Pre_finite_inputs.S_.Idx := ⟨fun a b => funext fun d => d.elim0⟩

/-- The word `0x7F800000` denotes `+∞`. -/
theorem ofBits_inf_f32 : Ideal.ofBits .f32 0x7F800000#32 = ⊤ := by
  simp [Ideal.ofBits, Ideal.ieee]

/-- An extended real whose magnitude is below `⊤` is real. -/
theorem real_of_abs_lt_top (a : EReal) (h : max a (-a) < ⊤) : ∃ r : ℝ, a = (r : EReal) := by
  induction a using EReal.rec with
  | bot => simp at h
  | top => simp at h
  | coe r => exact ⟨r, rfl⟩

/-- The compare word `|a| < +∞` being one says that `a` is real. -/
theorem real_of_word (a : EReal)
    (h : Ideal.cmp .olt (max a (-a)) (Ideal.ofBits .f32 0x7F800000#32) = 1#1) : ∃ r : ℝ, a = (r : EReal) := by
  rw [ofBits_inf_f32] at h
  refine real_of_abs_lt_top a ?_
  by_contra hn
  simp [Ideal.cmp, hn] at h

/-- Under the precondition every entry of the three argument arrays is real. -/
theorem reals_of_pre [Cert.Pre_finite_inputs.Facts]
    (x : FVec Ideal Cert.Pre_finite_inputs.S8192x4096 .f32) (w : FVec Ideal Cert.Pre_finite_inputs.S16384x4096 .f32)
    (bias : FVec Ideal Cert.Pre_finite_inputs.S16384 .f32)
    (h : Cert.Pre_finite_inputs.fn (F := Ideal) x w bias = fun _ => 1#1) :
    (∀ i, ∃ r : ℝ, x i = (r : EReal)) ∧ (∀ i, ∃ r : ℝ, w i = (r : EReal)) ∧ (∀ i, ∃ r : ℝ, bias i = (r : EReal)) := by
  have h0 := congrFun h (fun d => d.elim0)
  dsimp only [Cert.Pre_finite_inputs.fn] at h0
  obtain ⟨h8, h12⟩ := IntOp.andi_eq_one.1 h0
  obtain ⟨h3, h7⟩ := IntOp.andi_eq_one.1 h8
  refine ⟨fun i => ?_, fun i => ?_, fun i => ?_⟩
  · exact real_of_word _ (Host.reduce_andi_all _ _ _ _ _ h3 i)
  · exact real_of_word _ (Host.reduce_andi_all _ _ _ _ _ h7 i)
  · exact real_of_word _ (Host.reduce_andi_all _ _ _ _ _ h12 i)

end Cert.Tern.Finite

end
-- ==== Proof.FrameKernelIdeal.Pieces1.lean ====
/-
  The matrix-product kernel's cases read back as values, at any float instance: when k = 0 the accumulator ends at
  the block product added to the zero fill; when k = 1, 2, 3 at the block product added to what the point before
  left; and when k = 3 the output block is that accumulator scaled by the scale row and biased by the bias row.
-/
import proofs.«162674_j51814485459451_2_alg».proof.Proof.FrameKernelIdeal.Region1
import Idealize.ShloMosaic.Lib.Pipeline.Value

set_option maxRecDepth 16384

noncomputable section

namespace Cert.KernelIdeal.Frm

open Idealize.ShloMosaic Idealize.ShloMosaic.TcCoe Idealize.ShloMosaic.Tactic Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl

/-- k = 0: the accumulator ends at the zero fill plus the block product. -/
theorem sout_A (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond1_0 i) (hc1 : ¬cond1_1 i)
    (x0 : Vec F S1024x1024 .bf16) (x1 : Vec F S2048x1024 .bf16) (x2 : Vec F S1x2048 .f32) (x3 : Vec F S1x2048 .f32) :
    sout1_A_0 c i arg3 harg3 arg4 harg4 arg5 harg5 arg6 harg6 arg7 harg7 arg8 harg8 hc0 hc1 x0 x1 x2 x3 = k1_pay2 x0 x1 (k1_pay1 (F := F)) := by
  unfold sout1_A_0
  rw [View.read_writes_eq_canon _ _ _ (scover1_A_0 c i arg3 harg3 arg4 harg4 arg5 harg5 arg6 harg6 arg7 harg7 arg8 harg8 hc0 hc1 x0 x1 x2 x3)]
  unfold kernelRun1_A
  dsimp only
  sl_unfold_words
  rw [View.canon_cons_unit_zero (S := S1024x2048) hz2, View.readCov_unit_zero (S := S1024x2048) _ hz2]
  simp only [View.readAt_eq_ld, harg3.read_unread, harg4.read_unread, harg5.read_unread, harg6.read_unread, harg8.read_unread,
    View.ld_unit_zero (S := S1024x1024) hz2, View.ld_unit_zero (S := S2048x1024) hz2, View.ld_unit_zero (S := S1024x2048) hz2, View.ld_unit_zero (S := S1x2048) hz2]

/-- k = 1, 2: the accumulator ends at what it held plus the block product. -/
theorem sout_B (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : ¬cond1_1 i)
    (x0 : Vec F S1024x1024 .bf16) (x1 : Vec F S2048x1024 .bf16) (x2 : Vec F S1x2048 .f32) (x3 : Vec F S1x2048 .f32) (xs0 : Vec F S1024x2048 .f32) :
    sout1_B_0 c i arg3 harg3 arg4 harg4 arg5 harg5 arg6 harg6 arg7 harg7 arg8 harg8 hc0 hc1 x0 x1 x2 x3 xs0 = k1_pay2 x0 x1 xs0 := by
  unfold sout1_B_0
  rw [View.read_writes_eq_canon _ _ _ (scover1_B_0 c i arg3 harg3 arg4 harg4 arg5 harg5 arg6 harg6 arg7 harg7 arg8 harg8 hc0 hc1 x0 x1 x2 x3 xs0)]
  unfold kernelRun1_B
  dsimp only
  sl_unfold_words
  rw [View.canon_unit_zero hz2]
  simp only [View.readAt_eq_ld, harg3.read_unread, harg4.read_unread, harg5.read_unread, harg6.read_unread, harg8.read_unread,
    View.ld_unit_zero (S := S1024x1024) hz2, View.ld_unit_zero (S := S2048x1024) hz2, View.ld_unit_zero (S := S1024x2048) hz2, View.ld_unit_zero (S := S1x2048) hz2]

/-- k = 3: the accumulator likewise, -/
theorem sout_C (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : cond1_1 i)
    (x0 : Vec F S1024x1024 .bf16) (x1 : Vec F S2048x1024 .bf16) (x2 : Vec F S1x2048 .f32) (x3 : Vec F S1x2048 .f32) (xs0 : Vec F S1024x2048 .f32) :
    sout1_C_0 c i arg3 harg3 arg4 harg4 arg5 harg5 arg6 harg6 arg7 harg7 arg8 harg8 hc0 hc1 x0 x1 x2 x3 xs0 = k1_pay2 x0 x1 xs0 := by
  unfold sout1_C_0
  rw [View.read_writes_eq_canon _ _ _ (scover1_C_0 c i arg3 harg3 arg4 harg4 arg5 harg5 arg6 harg6 arg7 harg7 arg8 harg8 hc0 hc1 x0 x1 x2 x3 xs0)]
  unfold kernelRun1_C
  dsimp only
  sl_unfold_words
  rw [View.canon_unit_zero hz2]
  simp only [View.readAt_eq_ld, harg3.read_unread, harg4.read_unread, harg5.read_unread, harg6.read_unread, harg8.read_unread,
    View.ld_unit_zero (S := S1024x1024) hz2, View.ld_unit_zero (S := S2048x1024) hz2, View.ld_unit_zero (S := S1024x2048) hz2, View.ld_unit_zero (S := S1x2048) hz2]

/-- and the output block is the new accumulator times the scale row plus the bias row. -/
theorem out_C (c : Dev nD) (i : grid1.Coords) (arg3 : Memref sig .tc .vmem S1024x1024 .bf16) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : cond1_1 i)
    (x0 : Vec F S1024x1024 .bf16) (x1 : Vec F S2048x1024 .bf16) (x2 : Vec F S1x2048 .f32) (x3 : Vec F S1x2048 .f32) (xs0 : Vec F S1024x2048 .f32) :
    out1_C_4 c i arg3 harg3 arg4 harg4 arg5 harg5 arg6 harg6 arg7 harg7 arg8 harg8 hc0 hc1 x0 x1 x2 x3 xs0 = k1_pay3 (k1_pay2 x0 x1 xs0) x2 x3 := by
  unfold out1_C_4
  rw [View.read_writes_eq_canon _ _ _ (cover1_C_4 c i arg3 harg3 arg4 harg4 arg5 harg5 arg6 harg6 arg7 harg7 arg8 harg8 hc0 hc1 x0 x1 x2 x3 xs0)]
  unfold kernelRun1_C
  dsimp only
  sl_unfold_words
  rw [View.canon_unit_zero hz2, View.readCov_unit_zero (S := S1024x2048) _ hz2]
  simp only [View.readAt_eq_ld, harg3.read_unread, harg4.read_unread, harg5.read_unread, harg6.read_unread, harg8.read_unread,
    View.ld_unit_zero (S := S1024x1024) hz2, View.ld_unit_zero (S := S2048x1024) hz2, View.ld_unit_zero (S := S1024x2048) hz2, View.ld_unit_zero (S := S1x2048) hz2]

end Cert.KernelIdeal.Frm

end
-- ==== Proof.LibTransposedMatmul.lean ====
/-
  A matrix product `[a, n] × [b, n]ᵀ` (both operands contracted on their columns, no batch axis) into the zero
  accumulator, read at an entry on the extended reals: entry `(r, j)` is the sum over `k` of the left operand at
  `(r, k)` times the right operand at `(j, k)`. General over the three extents, the two operand formats and the
  precision.
-/
import Idealize.ShloMosaic.Lib.ValueIdx
import Idealize.ShloMosaic.PureOps.Ideal.Laws

noncomputable section

open scoped BigOperators

namespace Cert.LibTransposedMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.transposedRhs a n b).contr.Idx) :
    ((DotDims.transposedRhs a n b).lhsIdx i q 0).val = (i 0).val := rfl

/-- … and the contraction coordinate as its column. -/
theorem lhs_col (i : (⟨2, ![a, b]⟩ : Shape).Idx) (q : (DotDims.transposedRhs a n b).contr.Idx) :
    ((DotDims.transposedRhs a n b).lhsIdx i q 1).val
      = (q (⟨0, Nat.one_pos⟩ : Fin (DotDims.transposedRhs a n b).contr.rank)).val :=
  (DotDims.transposedRhs a n b).lhsIdx_val_of_single rfl i q

/-- The right operand's index: row `i 1` … -/
theorem rhs_row (i : (⟨2, ![a, b]⟩ : Shape).Idx) (q : (DotDims.transposedRhs a n b).contr.Idx) :
    ((DotDims.transposedRhs a n b).rhsIdx i q 0).val = (i 1).val := rfl

/-- … and the contraction coordinate as its column. -/
theorem rhs_col (i : (⟨2, ![a, b]⟩ : Shape).Idx) (q : (DotDims.transposedRhs a n b).contr.Idx) :
    ((DotDims.transposedRhs a n b).rhsIdx i q 1).val
      = (q (⟨0, Nat.one_pos⟩ : Fin (DotDims.transposedRhs a n b).contr.rank)).val :=
  (DotDims.transposedRhs a n b).rhsIdx_val_of_single rfl i q

/-- A product with the transposed right operand into the zero accumulator, at entry `(r, j)`, is
    `Σₖ A (r, k) · B (j, k)`. -/
theorem matmul_zero_apply {φ₁ φ₂ : FTy} (prec : Option ContractPrecision) (A : FVec Ideal ⟨2, ![a, n]⟩ φ₁)
    (B : FVec Ideal ⟨2, ![b, n]⟩ φ₂) (r : Fin a) (j : Fin b) :
    FloatOps.matmul (DotDims.transposedRhs a n b) prec A B (constant ⟨2, ![a, b]⟩ .f32 0x00000000#32) (ix2 r j)
      = ∑ k : Fin n, A (ix2 r k) * B (ix2 j k) := by
  rw [Ideal.matmul_constant_zero_apply, ← Equiv.sum_comp (contrEquiv1 (DotDims.transposedRhs a n b) n rfl rfl).symm]
  refine Finset.sum_congr rfl fun k _ => ?_
  have hk := contrEquiv1_symm_val (DotDims.transposedRhs a n b) n rfl rfl k
  have el : (DotDims.transposedRhs a n b).lhsIdx (ix2 r j) ((contrEquiv1 (DotDims.transposedRhs a n b) n rfl rfl).symm k)
      = ix2 r k :=
    funext fun c => Fin.ext (by
      match c with
      | ⟨0, _⟩ => exact lhs_row _ _
      | ⟨1, _⟩ => exact (lhs_col _ _).trans hk)
  have er : (DotDims.transposedRhs a n b).rhsIdx (ix2 r j) ((contrEquiv1 (DotDims.transposedRhs a n b) n rfl rfl).symm k)
      = ix2 j k :=
    funext fun c => Fin.ext (by
      match c with
      | ⟨0, _⟩ => exact rhs_row _ _
      | ⟨1, _⟩ => exact (rhs_col _ _).trans hk)
  rw [el, er]

end Cert.LibTransposedMatmul

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.Pay1.lean ====
/-
  The matrix-product kernel's three stored values, read at an entry on the extended reals: the zero fill of the
  accumulator, one K-block's accumulation step (the accumulator plus the block's contraction, both operands
  contracted on their last axis), and the final scale-and-bias step (each column's scale and bias are rows
  repeated down the block).
-/
import proofs.«162674_j51814485459451_2_alg».proof.Proof.Gen.KernelIdeal.Skeleton
import proofs.«162674_j51814485459451_2_alg».proof.Proof.LibTransposedMatmul
import proofs.«162674_j51814485459451_2_alg».proof.Proof.LibBlockLayout
import Idealize.ShloMosaic.Lib.Pipeline.Value
import Idealize.ShloMosaic.Lib.ValueIdx
import Idealize.ShloMosaic.PureOps.Ideal.Laws

set_option synthInstance.maxSize 4096

noncomputable section

open scoped BigOperators

namespace Cert.KernelIdeal.Pay

open Idealize.ShloMosaic Idealize.SL.Sem Idealize.ShloMosaic.ValueIdx
open Cert.KernelIdeal Cert.KernelIdeal.Gen

/-- The contraction record of the kernel's product is the one with both operands contracted on their last axis:
    the six index lists agree, and the well-formedness field is a proposition. -/
theorem dot_eq_transposedRhs :
    dot_S1024x1024_S2048x1024_S1024x2048_1_1_0_0_n_n = DotDims.transposedRhs 1024 1024 2048 := rfl

/-- The accumulator's fill is zero at every entry. -/
theorem pay1_at (r : Fin 1024) (j : Fin 2048) : k1_pay1 (F := Ideal) (ix2 r j) = 0 := by
  unfold k1_pay1
  rw [shapeCast_self]
  show Ideal.ofBits .f32 0x00000000#32 = 0
  exact Ideal.ofBits_zero_f32

/-- One accumulation step at entry `(r, j)`: the accumulator's entry plus `Σₖ v3 (r, k) · v5 (j, k)`. -/
theorem pay2_at (v3 : Vec Ideal S1024x1024 .bf16) (v5 : Vec Ideal S2048x1024 .bf16) (v7 : Vec Ideal S1024x2048 .f32)
    (r : Fin 1024) (j : Fin 2048) :
    k1_pay2 (F := Ideal) v3 v5 v7 (ix2 r j)
      = v7 (ix2 r j) + ∑ k : Fin 1024, v3 (ix2 r k) * v5 (ix2 j k) := by
  unfold k1_pay2
  rw [shapeCast_self, shapeCast_self, shapeCast_self, addf_apply, dot_eq_transposedRhs]
  exact congrArg (v7 (ix2 r j) + ·) (Cert.LibTransposedMatmul.matmul_zero_apply none v3 v5 r j)

/-- The final step at entry `(r, j)`: the accumulator's entry times column `j`'s scale, plus column `j`'s bias. -/
theorem pay3_at (v16 : Vec Ideal S1024x2048 .f32) (v17 v21 : Vec Ideal S1x2048 .f32) (r : Fin 1024) (j : Fin 2048) :
    k1_pay3 (F := Ideal) v16 v17 v21 (ix2 r j)
      = v16 (ix2 r j) * v17 (ix2 0 j) + v21 (ix2 0 j) := by
  unfold k1_pay3
  rw [shapeCast_self, shapeCast_self, addf_apply, mulf_apply,
    Cert.LibBlockLayout.rowBroadcast_at, Cert.LibBlockLayout.rowBroadcast_at]

end Cert.KernelIdeal.Pay

end
-- ==== Proof.Value1.lean ====
/-
  The matrix-product region's result array, on the extended reals, for any contents `V` the region is entered with.
  Write X for the activations array it reads, T for the ternary weights, and Sr, Br for the scale and bias rows.
  Grid point t = (a, b, k) (a = t / 32, b = t / 4 mod 8, k = t mod 4) reads rows 1024a … of X and rows 2048b … of T,
  both at columns 1024k …, and columns 2048b … of the two rows. By induction over the points, the accumulator after
  point t holds at (r, j) the blocks 0 … k of the contraction of row 1024a + r of X with row 2048b + j of T, added
  one after the other from zero. The points with k = 3 write the block back, their blocks cover the array, and so
  the array ends at: four blocks accumulated from zero, times the column's scale, plus the column's bias.
-/
import proofs.«162674_j51814485459451_2_alg».proof.Proof.FrameKernelIdeal.Pieces1
import proofs.«162674_j51814485459451_2_alg».proof.Proof.Pay1
import proofs.«162674_j51814485459451_2_alg».proof.Proof.Spec
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frm Cert.Tern

/-! ## Partial accumulations -/

/-- A row of 4096 terms continued by zero. -/
def ext0 (f : Fin 4096 → EReal) (i : ℕ) : EReal := if h : i < 4096 then f ⟨i, h⟩ else 0
/-- Block `k` of 1024 consecutive terms. -/
def bsN (f : Fin 4096 → EReal) (k : ℕ) : EReal := ∑ kk : Fin 1024, ext0 f (k * 1024 + kk.val)
/-- Blocks 0 … k added one after the other from zero. -/
def partN (f : Fin 4096 → EReal) : ℕ → EReal
  | 0 => 0 + bsN f 0
  | k + 1 => partN f k + bsN f (k + 1)

theorem bsN_eq (f : Fin 4096 → EReal) (n : Fin 4) : bsN f n.val = blockSum f n := by
  unfold bsN blockSum
  refine Finset.sum_congr rfl fun kk _ => ?_
  unfold ext0
  rw [dif_pos]

theorem partN_three (f : Fin 4096 → EReal) : partN f 3 = accAt f := by
  unfold accAt
  rw [← bsN_eq f 0, ← bsN_eq f 1, ← bsN_eq f 2, ← bsN_eq f 3]
  rfl

/-! ## One step of the body at an entry, over plain blocks -/

/-- The first step: the zero fill plus block 0. -/
theorem first_val (x0 : Vec Ideal S1024x1024 .bf16) (x1 : Vec Ideal S2048x1024 .bf16) (f : Fin 4096 → EReal)
    (r : Fin 1024) (j : Fin 2048) (hx : ∀ kk : Fin 1024, x0 (ix2 r kk) * x1 (ix2 j kk) = ext0 f (0 * 1024 + kk.val)) :
    k1_pay2 (F := Ideal) x0 x1 (k1_pay1 (F := Ideal)) (ix2 r j) = partN f 0 := by
  rw [Pay.pay2_at, Pay.pay1_at]
  show 0 + _ = 0 + bsN f 0
  unfold bsN
  exact congrArg (0 + ·) (Finset.sum_congr rfl fun kk _ => hx kk)

/-- A later step: what the accumulator held plus block k + 1. -/
theorem step_val (x0 : Vec Ideal S1024x1024 .bf16) (x1 : Vec Ideal S2048x1024 .bf16) (prev : Vec Ideal S1024x2048 .f32)
    (f : Fin 4096 → EReal) (k : ℕ) (r : Fin 1024) (j : Fin 2048)
    (hx : ∀ kk : Fin 1024, x0 (ix2 r kk) * x1 (ix2 j kk) = ext0 f ((k + 1) * 1024 + kk.val))
    (hprev : prev (ix2 r j) = partN f k) :
    k1_pay2 (F := Ideal) x0 x1 prev (ix2 r j) = partN f (k + 1) := by
  rw [Pay.pay2_at, hprev]
  show _ = partN f k + bsN f (k + 1)
  unfold bsN
  exact congrArg (partN f k + ·) (Finset.sum_congr rfl fun kk _ => hx kk)

/-- The last step and the store: four blocks accumulated, times the scale, plus the bias. -/
theorem out_val (x0 : Vec Ideal S1024x1024 .bf16) (x1 : Vec Ideal S2048x1024 .bf16) (prev : Vec Ideal S1024x2048 .f32)
    (x2 x3 : Vec Ideal S1x2048 .f32) (f : Fin 4096 → EReal) (s b : EReal) (r : Fin 1024) (j : Fin 2048)
    (hx : ∀ kk : Fin 1024, x0 (ix2 r kk) * x1 (ix2 j kk) = ext0 f (3 * 1024 + kk.val))
    (hprev : prev (ix2 r j) = partN f 2) (hs : x2 (ix2 0 j) = s) (hb : x3 (ix2 0 j) = b) :
    k1_pay3 (F := Ideal) (k1_pay2 (F := Ideal) x0 x1 prev) x2 x3 (ix2 r j) = accAt f * s + b := by
  rw [Pay.pay3_at, step_val x0 x1 prev f 2 r j hx hprev, hs, hb, partN_three]

/-! ## The windows' blocks, read where the grid point says -/

theorem idx1 : ∀ t : Fin cfg1.N, win1_0.index t (0 : Fin 2) = t.val / 32 ∧ win1_0.index t (1 : Fin 2) = t.val % 4
    ∧ win1_1.index t (0 : Fin 2) = t.val / 4 % 8 ∧ win1_1.index t (1 : Fin 2) = t.val % 4
    ∧ win1_2.index t (0 : Fin 2) = 0 ∧ win1_2.index t (1 : Fin 2) = t.val / 4 % 8
    ∧ win1_3.index t (0 : Fin 2) = 0 ∧ win1_3.index t (1 : Fin 2) = t.val / 4 % 8
    ∧ win1_4.index t (0 : Fin 2) = t.val / 32 ∧ win1_4.index t (1 : Fin 2) = t.val / 4 % 8 :=
  (by decide +kernel : ∀ t : Fin grid1.N, _)

section
variable (V : (c : Dev nD) → (b : Ref sig .tc) → Buf (Elt Ideal) ((c : Thread nD τ).loc b)) (c : Dev nD)

/-- The four arrays the region reads, as plain index functions. -/
abbrev Xa : S8192x4096.Idx → EReal := V c main_v3
abbrev Ta : S16384x4096.Idx → EReal := V c main_v0_0
abbrev Sa : S1x16384.Idx → EReal := V c main_v2
abbrev Ba : S1x16384.Idx → EReal := V c main_v4

/-- The row of the contraction's terms for output entry (p, q). -/
def terms (p : Fin 8192) (q : Fin 16384) : Fin 4096 → EReal := fun i => Xa V c (ix2 p i) * Ta V c (ix2 q i)

/-- The array the region's output ends holding. -/
def G1 : S8192x16384.Idx → EReal := fun i =>
  accAt (terms V c (i 0) (i 1)) * Sa V c (ix2 (0 : Fin 1) (i 1)) + Ba V c (ix2 (0 : Fin 1) (i 1))

theorem tlt (t : Fin cfg1.N) : t.val < 256 := lt_of_lt_of_eq t.isLt N_1

theorem blk0_at (t : Fin cfg1.N) (r kk : Fin 1024) :
    iblk1 V c 0 t (ix2 r kk) = Xa V c (ix2 (⟨1024 * (t.val / 32) + r.val, by have := tlt t; have := r.isLt; omega⟩ : Fin 8192)
      (⟨1024 * (t.val % 4) + kk.val, by have := kk.isLt; omega⟩ : Fin 4096)) := by
  obtain ⟨e0, e1, -⟩ := idx1 t
  show V c main_v3 (((cfg1.win 0).blk t).view.emb (ix2 r kk)) = _
  refine congrArg (V c main_v3) ?_
  funext a; apply Fin.ext
  match a with
  | ⟨0, _⟩ => show win1_0.index t (0 : Fin 2) * 1024 + 1 * r.val = 1024 * (t.val / 32) + r.val; omega
  | ⟨1, _⟩ => show win1_0.index t (1 : Fin 2) * 1024 + 1 * kk.val = 1024 * (t.val % 4) + kk.val; omega

theorem blk1_at (t : Fin cfg1.N) (j : Fin 2048) (kk : Fin 1024) :
    iblk1 V c 1 t (ix2 j kk) = Ta V c (ix2 (⟨2048 * (t.val / 4 % 8) + j.val, by have := j.isLt; omega⟩ : Fin 16384)
      (⟨1024 * (t.val % 4) + kk.val, by have := kk.isLt; omega⟩ : Fin 4096)) := by
  obtain ⟨-, -, e2, e3, -⟩ := idx1 t
  show V c main_v0_0 (((cfg1.win 1).blk t).view.emb (ix2 j kk)) = _
  refine congrArg (V c main_v0_0) ?_
  funext a; apply Fin.ext
  match a with
  | ⟨0, _⟩ => show win1_1.index t (0 : Fin 2) * 2048 + 1 * j.val = 2048 * (t.val / 4 % 8) + j.val; omega
  | ⟨1, _⟩ => show win1_1.index t (1 : Fin 2) * 1024 + 1 * kk.val = 1024 * (t.val % 4) + kk.val; omega

theorem blk2_at (t : Fin cfg1.N) (j : Fin 2048) :
    iblk1 V c 2 t (ix2 (0 : Fin 1) j) = Sa V c (ix2 (0 : Fin 1) (⟨2048 * (t.val / 4 % 8) + j.val, by have := j.isLt; omega⟩ : Fin 16384)) := by
  obtain ⟨-, -, -, -, e4, e5, -⟩ := idx1 t
  show V c main_v2 (((cfg1.win 2).blk t).view.emb (ix2 (0 : Fin 1) j)) = _
  refine congrArg (V c main_v2) ?_
  funext a; apply Fin.ext
  match a with
  | ⟨0, _⟩ => show win1_2.index t (0 : Fin 2) * 1 + 1 * 0 = 0; omega
  | ⟨1, _⟩ => show win1_2.index t (1 : Fin 2) * 2048 + 1 * j.val = 2048 * (t.val / 4 % 8) + j.val; omega

theorem blk3_at (t : Fin cfg1.N) (j : Fin 2048) :
    iblk1 V c 3 t (ix2 (0 : Fin 1) j) = Ba V c (ix2 (0 : Fin 1) (⟨2048 * (t.val / 4 % 8) + j.val, by have := j.isLt; omega⟩ : Fin 16384)) := by
  obtain ⟨-, -, -, -, -, -, e6, e7, -⟩ := idx1 t
  show V c main_v4 (((cfg1.win 3).blk t).view.emb (ix2 (0 : Fin 1) j)) = _
  refine congrArg (V c main_v4) ?_
  funext a; apply Fin.ext
  match a with
  | ⟨0, _⟩ => show win1_3.index t (0 : Fin 2) * 1 + 1 * 0 = 0; omega
  | ⟨1, _⟩ => show win1_3.index t (1 : Fin 2) * 2048 + 1 * j.val = 2048 * (t.val / 4 % 8) + j.val; omega

/-- The output rows and columns of grid point `t`. -/
abbrev rowOf (t : Fin cfg1.N) (r : Fin 1024) : Fin 8192 := ⟨1024 * (t.val / 32) + r.val, by have := tlt t; have := r.isLt; omega⟩
abbrev colOf (t : Fin cfg1.N) (j : Fin 2048) : Fin 16384 := ⟨2048 * (t.val / 4 % 8) + j.val, by have := j.isLt; omega⟩

/-- The products of the point's two blocks are block `k = t mod 4` of the entry's terms. -/
theorem prod_at (t : Fin cfg1.N) (k : ℕ) (hk : t.val % 4 = k) (r : Fin 1024) (j : Fin 2048)
    (x0 : Vec Ideal S1024x1024 .bf16) (x1 : Vec Ideal S2048x1024 .bf16) (h0 : x0 = iblk1 V c 0 t) (h1 : x1 = iblk1 V c 1 t)
    (kk : Fin 1024) :
    x0 (ix2 r kk) * x1 (ix2 j kk) = ext0 (terms V c (rowOf t r) (colOf t j)) (k * 1024 + kk.val) := by
  subst h0 h1
  rw [blk0_at, blk1_at]
  unfold ext0 terms
  have hk4 : k < 4 := by omega
  rw [dif_pos (by have := kk.isLt; omega)]
  subst hk
  refine congrArg₂ (fun a b => Xa V c (ix2 (rowOf t r) a) * Ta V c (ix2 (colOf t j) b)) ?_ ?_ <;> exact Fin.ext (by dsimp only; omega)

/-! ## The accumulator after every point -/

theorem acc_eq : ∀ (n : ℕ) (h : n < cfg1.N) (r : Fin 1024) (j : Fin 2048),
    (outsAt1 V c n h).2 (ix2 r j) = partN (terms V c (rowOf ⟨n, h⟩ r) (colOf ⟨n, h⟩ j)) (n % 4)
  | 0, h, r, j => by
    rw [outsAt1_A V c ⟨0, h⟩ (Nat.zero_mod _)]
    unfold pairA
    dsimp only
    rw [sout_A]
    exact first_val (iblk1 V c 0 ⟨0, h⟩) (iblk1 V c 1 ⟨0, h⟩) (terms V c (rowOf ⟨0, h⟩ r) (colOf ⟨0, h⟩ j)) r j
      (prod_at V c ⟨0, h⟩ 0 (Nat.zero_mod _) r j _ _ rfl rfl)
  | n + 1, h, r, j => by
    have hN : n + 1 < 256 := lt_of_lt_of_eq h N_1
    by_cases h0 : (n + 1) % 4 = 0
    · rw [outsAt1_A V c ⟨n + 1, h⟩ h0]
      unfold pairA
      dsimp only
      rw [sout_A, h0]
      exact first_val (iblk1 V c 0 ⟨n + 1, h⟩) (iblk1 V c 1 ⟨n + 1, h⟩) (terms V c (rowOf ⟨n + 1, h⟩ r) (colOf ⟨n + 1, h⟩ j)) r j
        (prod_at V c ⟨n + 1, h⟩ 0 h0 r j _ _ rfl rfl)
    · have ih := acc_eq n (Nat.lt_of_succ_lt h) r j
      have hk : (n + 1) % 4 = n % 4 + 1 := by omega
      have hrow : rowOf ⟨n, Nat.lt_of_succ_lt h⟩ r = rowOf ⟨n + 1, h⟩ r := Fin.ext (by show 1024 * (n / 32) + r.val = 1024 * ((n + 1) / 32) + r.val; omega)
      have hcol : colOf ⟨n, Nat.lt_of_succ_lt h⟩ j = colOf ⟨n + 1, h⟩ j := Fin.ext (by show 2048 * (n / 4 % 8) + j.val = 2048 * ((n + 1) / 4 % 8) + j.val; omega)
      rw [hrow, hcol] at ih
      rw [hk]
      by_cases h1 : (n + 1) % 4 = 3
      · rw [outsAt1_C V c ⟨n + 1, h⟩ h0 h1]
        unfold pairC
        dsimp only
        rw [sout_C]
        exact step_val (iblk1 V c 0 ⟨n + 1, h⟩) (iblk1 V c 1 ⟨n + 1, h⟩) _ (terms V c (rowOf ⟨n + 1, h⟩ r) (colOf ⟨n + 1, h⟩ j)) (n % 4) r j
          (prod_at V c ⟨n + 1, h⟩ (n % 4 + 1) hk r j _ _ rfl rfl) ih
      · rw [outsAt1_B V c ⟨n + 1, h⟩ h0 h1]
        unfold pairB
        dsimp only
        rw [sout_B]
        exact step_val (iblk1 V c 0 ⟨n + 1, h⟩) (iblk1 V c 1 ⟨n + 1, h⟩) _ (terms V c (rowOf ⟨n + 1, h⟩ r) (colOf ⟨n + 1, h⟩ j)) (n % 4) r j
          (prod_at V c ⟨n + 1, h⟩ (n % 4 + 1) hk r j _ _ rfl rfl) ih

end

end Cert.KernelIdeal.Val

end
-- ==== Proof.Value1b.lean ====
/-
  The matrix-product region's result array after the run. The grid points with k = 3 write their block back: at
  entry (r, j) of such a point's block stand the four blocks of the contraction of the entry's row of activations with
  its row of ternary weights, accumulated from zero, times the column's scale, plus the column's bias. These blocks
  tile the array: the point that holds entry (p, q) is (p / 1024, q / 2048, 3).
-/
import proofs.«162674_j51814485459451_2_alg».proof.Proof.Value1

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frm Cert.Tern

section
variable (V : (c : Dev nD) → (b : Ref sig .tc) → Buf (Elt Ideal) ((c : Thread nD τ).loc b)) (c : Dev nD)

/-- Where entry (r, j) of point `t`'s output block sits in the array. -/
theorem emb4_at (t : Fin cfg1.N) (r : Fin 1024) (j : Fin 2048) :
    ((cfg1.win 4).blk t).view.emb (ix2 r j) = ix2 (rowOf t r) (colOf t j) := by
  obtain ⟨-, -, -, -, -, -, -, -, e8, e9⟩ := idx1 t
  funext a; apply Fin.ext
  match a with
  | ⟨0, _⟩ => show win1_4.index t (0 : Fin 2) * 1024 + 1 * r.val = 1024 * (t.val / 32) + r.val; omega
  | ⟨1, _⟩ => show win1_4.index t (1 : Fin 2) * 2048 + 1 * j.val = 2048 * (t.val / 4 % 8) + j.val; omega

/-- The accumulator the point before a point with k = 3 left: blocks 0, 1, 2 of this point's entries. -/
theorem prev_at (t : Fin cfg1.N) (h1 : t.val % 4 = 3) (r : Fin 1024) (j : Fin 2048) :
    (outsAt1 V c (t.val - 1) (Nat.lt_of_le_of_lt (Nat.sub_le _ _) t.isLt)).2 (ix2 r j)
      = partN (terms V c (rowOf t r) (colOf t j)) 2 := by
  have ih := acc_eq V c (t.val - 1) (Nat.lt_of_le_of_lt (Nat.sub_le _ _) t.isLt) r j
  have hrow : rowOf ⟨t.val - 1, Nat.lt_of_le_of_lt (Nat.sub_le _ _) t.isLt⟩ r = rowOf t r :=
    Fin.ext (by show 1024 * ((t.val - 1) / 32) + r.val = 1024 * (t.val / 32) + r.val; omega)
  have hcol : colOf ⟨t.val - 1, Nat.lt_of_le_of_lt (Nat.sub_le _ _) t.isLt⟩ j = colOf t j :=
    Fin.ext (by show 2048 * ((t.val - 1) / 4 % 8) + j.val = 2048 * (t.val / 4 % 8) + j.val; omega)
  have hk : (t.val - 1) % 4 = 2 := by omega
  rw [hrow, hcol, hk] at ih
  exact ih

/-- What a point with k = 3 stores, at an entry of its block: the array's function there. -/
theorem out_entry (t : Fin cfg1.N) (h1 : t.val % 4 = 3) (r : Fin 1024) (j : Fin 2048) :
    k1_pay3 (F := Ideal)
        (k1_pay2 (F := Ideal) (iblk1 V c 0 t) (iblk1 V c 1 t)
          (outsAt1 V c (t.val - 1) (Nat.lt_of_le_of_lt (Nat.sub_le _ _) t.isLt)).2)
        (iblk1 V c 2 t) (iblk1 V c 3 t) (ix2 r j)
      = G1 V c (ix2 (rowOf t r) (colOf t j)) :=
  (out_val (iblk1 V c 0 t) (iblk1 V c 1 t) (outsAt1 V c (t.val - 1) (Nat.lt_of_le_of_lt (Nat.sub_le _ _) t.isLt)).2
    (iblk1 V c 2 t) (iblk1 V c 3 t) (terms V c (rowOf t r) (colOf t j))
    (Sa V c (ix2 (0 : Fin 1) (colOf t j))) (Ba V c (ix2 (0 : Fin 1) (colOf t j))) r j
    (prod_at V c t 3 h1 r j _ _ rfl rfl) (prev_at V c t h1 r j) (blk2_at V c t j) (blk3_at V c t j)).trans rfl

/-- What a writing point writes back is its block of the array's function. -/
theorem out_flushed (t : Fin cfg1.N) (hf : (cfg1.win 4).flush t = true) :
    (dat1 V c).flushed 4 t = ((cfg1.win 4).blk t).view.read (Elt Ideal) (G1 V c) := by
  have h1 : t.val % 4 = 3 := (flush1_4 t).mp hf
  have h0 : ¬t.val % 4 = 0 := by omega
  show (cfg1.win 4).cut (grid1.coords t) ((dat1 V c).after 4 t) = _
  rw [after1_4, outsAt1_C V c t h0 h1]
  unfold pairC
  dsimp only
  rw [out_C]
  funext y
  obtain ⟨r, j, rfl⟩ : ∃ (r : Fin 1024) (j : Fin 2048), y = ix2 r j := ⟨y 0, y 1, eq_ix2 y⟩
  refine (out_entry V c t h1 r j).trans ?_
  rw [View.read_apply, emb4_at]
  rfl

/-! ### The writing points' blocks tile the array -/

theorem out_mem_blk (t : Fin cfg1.N) (i : S8192x16384.Idx) :
    i ∈ ((cfg1.win 4).blk t).view.set ↔ ∀ a : Fin 2, win1_4.index t a * S1024x2048.size a ≤ (i a).val ∧ (i a).val < win1_4.index t a * S1024x2048.size a + S1024x2048.size a := by
  show i ∈ ((View.whole main_v5).slice (win1_4.rect t)).set ↔ _
  rw [View.set_slice_whole, Rect.mem_set_unit]
  exact Iff.rfl

theorem out_cover (i : S8192x16384.Idx) :
    ∃ t : Fin cfg1.N, (cfg1.win 4).flush t = true ∧ i ∈ ((cfg1.win 4).blk t).view.set := by
  have hN : grid1.N = 256 := N_1
  have hi0 : (i 0).val < 8192 := (i 0).isLt
  have hi1 : (i 1).val < 16384 := (i 1).isLt
  obtain ⟨t, ht⟩ : ∃ t : Fin cfg1.N, t.val = 32 * ((i 0).val / 1024) + 4 * ((i 1).val / 2048) + 3 :=
    ⟨⟨32 * ((i 0).val / 1024) + 4 * ((i 1).val / 2048) + 3, by show _ < grid1.N; omega⟩, rfl⟩
  have q0 : t.val / 32 = (i 0).val / 1024 := by omega
  have q1 : t.val / 4 % 8 = (i 1).val / 2048 := by omega
  obtain ⟨-, -, -, -, -, -, -, -, e8, e9⟩ := idx1 t
  refine ⟨t, (flush1_4 t).mpr (by omega), ?_⟩
  rw [out_mem_blk]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 2048 ≤ (i 1).val ∧ (i 1).val < win1_4.index t (1 : Fin 2) * 2048 + 2048; omega

/-- The result array ends holding, at every entry, four blocks accumulated from zero, times the column's scale, plus the
    column's bias. -/
theorem final1 : ((dat1 V c).arrAt 4 cfg1.N : S8192x16384.Idx → EReal) = G1 V c :=
  (dat1 V c).arrAt_eq_of_cover 4 (G1 V c) (fun t hf => out_flushed V c t hf) out_cover

end

end Cert.KernelIdeal.Val

end
-- ==== Proof.HostMid.lean ====
/-
  The four host operations between the two kernel launches, read at an entry on the extended reals, from an
  arbitrary valuation `W` of the buffers: the scale column `[16384, 1]` flattened and laid out as the row
  `[1, 16384]`, the activations narrowed to sixteen bits (the identity on extended reals), and the bias vector
  laid out as the row `[1, 16384]`. Every buffer the four operations do not write keeps its contents.
-/
import proofs.«162674_j51814485459451_2_alg».proof.Proof.Gen.KernelIdeal.Launch
import proofs.«162674_j51814485459451_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.Val

open Idealize.ShloMosaic Idealize.SL.Sem Idealize.ShloMosaic.ValueIdx
open Cert.KernelIdeal Cert.KernelIdeal.Gen

variable {α : Type}

/-- A column `[a, 1]` flattened to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector `[b]` placed along the second axis of the row `[1, b]` reads, at `(u, q)`, the vector at `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

variable (W : Valuation τ sig (Elt Ideal))

/-- The narrowed activations are the activations, entry by entry. -/
theorem after_v3 (i : S8192x4096.Idx) :
    (StableHlo.after (hostOps1 (F := Ideal)) W (Proc.devRef .tc main_v3) : S8192x4096.Idx → EReal) i
      = (W (Proc.devRef .tc main_arg0) : S8192x4096.Idx → EReal) i := by
  have h : (StableHlo.after (hostOps1 (F := Ideal)) W (Proc.devRef .tc main_v3) : S8192x4096.Idx → EReal)
      = (W (Proc.devRef .tc main_arg0) : S8192x4096.Idx → EReal) := by
    simp only [hostOps1]
    after_results
    rfl
  exact congrFun h i

/-- The scale row at `(0, q)` is the scale column at `(q, 0)`. -/
theorem after_v2 (q : Fin 16384) :
    (StableHlo.after (hostOps1 (F := Ideal)) W (Proc.devRef .tc main_v2) : S1x16384.Idx → EReal) (ix2 (0 : Fin 1) q)
      = (W (Proc.devRef .tc main_v0_1) : S16384x1.Idx → EReal) (ix2 q (0 : Fin 1)) := by
  have h : StableHlo.after (hostOps1 (F := Ideal)) W (Proc.devRef .tc main_v2)
      = broadcastInDim S1x16384 ![1] bcast_S16384_S1x16384_1
          (shapeCast S16384 (W (Proc.devRef .tc main_v0_1) : S16384x1.Idx → EReal) shapeCasts_S16384x1_S16384) := by
    simp only [hostOps1]
    after_results
    rfl
  refine (congrFun h (ix2 (0 : Fin 1) q)).trans ?_
  exact (broadcastInDim_b_1b_apply _ _ 0 q).trans (shapeCast_a1_a_apply _ _ q)

/-- The bias row at `(0, q)` is the bias vector at `q`. -/
theorem after_v4 (q : Fin 16384) :
    (StableHlo.after (hostOps1 (F := Ideal)) W (Proc.devRef .tc main_v4) : S1x16384.Idx → EReal) (ix2 (0 : Fin 1) q)
      = (W (Proc.devRef .tc main_arg2) : S16384.Idx → EReal) (ix1 q) := by
  have h : StableHlo.after (hostOps1 (F := Ideal)) W (Proc.devRef .tc main_v4)
      = shapeCast S1x16384 (W (Proc.devRef .tc main_arg2) : S16384.Idx → EReal) shapeCasts_S16384_S1x16384 := by
    simp only [hostOps1]
    after_results
    rfl
  refine (congrFun h (ix2 (0 : Fin 1) q)).trans ?_
  exact shapeCast_a_1a_apply _ _ 0 q

/-- A buffer none of the four operations writes keeps its contents. -/
theorem after_of_not_written (r : Ref sig .tc) (h : r ∉ hostOps1_W) :
    StableHlo.after (hostOps1 (F := Ideal)) W (Proc.devRef .tc r) = W (Proc.devRef .tc r) :=
  StableHlo.after_of_writes_sub hostOps1 W hostOps1_writes h

theorem after_v0_0 : StableHlo.after (hostOps1 (F := Ideal)) W (Proc.devRef .tc main_v0_0) = W (Proc.devRef .tc main_v0_0) :=
  after_of_not_written W main_v0_0 (by decide)
theorem after_v0_1 : StableHlo.after (hostOps1 (F := Ideal)) W (Proc.devRef .tc main_v0_1) = W (Proc.devRef .tc main_v0_1) :=
  after_of_not_written W main_v0_1 (by decide)
theorem after_arg0 : StableHlo.after (hostOps1 (F := Ideal)) W (Proc.devRef .tc main_arg0) = W (Proc.devRef .tc main_arg0) :=
  after_of_not_written W main_arg0 (by decide)
theorem after_arg1 : StableHlo.after (hostOps1 (F := Ideal)) W (Proc.devRef .tc main_arg1) = W (Proc.devRef .tc main_arg1) :=
  after_of_not_written W main_arg1 (by decide)
theorem after_arg2 : StableHlo.after (hostOps1 (F := Ideal)) W (Proc.devRef .tc main_arg2) = W (Proc.devRef .tc main_arg2) :=
  after_of_not_written W main_arg2 (by decide)

end Cert.KernelIdeal.Val

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.Pay0.lean ====
/-
  The quantize kernel's stored values on one block of 256 weight rows, read at an entry on the extended reals.
  Row `r` of the block is the function `i ↦ v0 (r, i)`; entry `(r, i)` of the ternary output is that row's ternary
  weight at `i`, and entry `(r, 0)` of the scale column is that row's scale. On the way: the magnitudes, the row's
  threshold (a lane sum kept as a column, divided and scaled, then repeated along the row), and the mask (the
  one-bit comparison widened and converted: `1` where the magnitude exceeds the threshold, `0` elsewhere).
-/
import proofs.«162674_j51814485459451_2_alg».proof.Proof.Gen.KernelIdeal.Skeleton
import proofs.«162674_j51814485459451_2_alg».proof.Proof.Spec
import proofs.«162674_j51814485459451_2_alg».proof.Proof.LibKeepdims
import Idealize.ShloMosaic.Lib.Pipeline.Value
import Idealize.ShloMosaic.Lib.ValueIdx
import Idealize.ShloMosaic.PureOps.Ideal.Laws

set_option synthInstance.maxSize 4096

noncomputable section

open scoped BigOperators

namespace Cert.KernelIdeal.Pay

open Idealize.ShloMosaic Idealize.SL.Sem Idealize.ShloMosaic.ValueIdx
open Cert.KernelIdeal Cert.KernelIdeal.Gen
open Cert.Tern

variable (v0 : Vec Ideal S256x4096 .f32) (r : Fin 256)

/-- The magnitudes: entry `(r, i)` is the row's magnitude at `i`. -/
theorem k0_pay1_at (i : Fin 4096) :
    k0_pay1 (F := Ideal) v0 (ix2 r i) = absR (fun i => v0 (ix2 r i)) i := rfl

/-- A lane sum of a `[256, 4096]` matrix kept as a column: entry `(r, 0)` is the sum of row `r`. -/
theorem laneSumCol_at (src : FVec Ideal S256x4096 .f32) :
    shapeCast S256x1 (multiReduction .add [1] S256 src 0x00000000#32 reduces_S256x4096_S256 (.inl rfl) rfl)
        shapeCasts_S256_S256x1 (ix2 r (0 : Fin 1))
      = ∑ d : Fin 4096, src (ix2 r d) :=
  (Cert.LibKeepdims.shapeCast_a_a1_apply _ _ r 0).trans
    (Cert.LibKeepdims.multiReduction_add_rows src _ _ _ _ r)

/-- The threshold column of the mask's computation: the word `0.05` times the row's lane sum over `4096.0`. -/
def thrCol : FVec Ideal S256x1 .f32 :=
  mulf (broadcast S256x1 (Scalar.ofBits .f32 0x3D4CCCCD#32))
    (divf
      (shapeCast S256x1 (multiReduction .add [1] S256 (k0_pay1 v0) 0x00000000#32 reduces_S256x4096_S256 (.inl rfl) rfl)
        shapeCasts_S256_S256x1)
      (broadcast S256x1 (Scalar.ofBits .f32 0x45800000#32)))

/-- The mask payload is the converted comparison of the magnitudes against the repeated threshold column. -/
theorem pay2_eq :
    k0_pay2 (F := Ideal) v0
      = sitofp .f32 (extui 32 (cmpf .ogt (k0_pay1 v0) (broadcastTo S256x4096 (thrCol v0) broadcasts_S256x1_S256x4096))
          natLt_1_32) := rfl

/-- The threshold column at `(r, 0)` is the row's threshold. -/
theorem thrCol_at : thrCol v0 (ix2 r (0 : Fin 1)) = thrR (fun i => v0 (ix2 r i)) :=
  congrArg (fun t => Ideal.ofBits .f32 0x3D4CCCCD#32 * Ideal.div t (Ideal.ofBits .f32 0x45800000#32))
    (laneSumCol_at r (k0_pay1 v0))

/-- The one-bit word of a decided comparison, widened to 32 bits and read as a signed integer, is `1` or `0`. -/
theorem bit_to_real (p : Prop) [Decidable p] :
    ((((BitVec.ofBool (decide p)).setWidth 32).toInt : ℝ) : EReal) = if p then 1 else 0 := by
  by_cases h : p
  · rw [if_pos h, decide_eq_true h]
    have : ((BitVec.ofBool true).setWidth 32).toInt = 1 := by decide
    rw [this]; simp
  · rw [if_neg h, decide_eq_false h]
    have : ((BitVec.ofBool false).setWidth 32).toInt = 0 := by decide
    rw [this]; simp

/-- The mask: entry `(r, i)` is `1` where the row's magnitude at `i` exceeds the row's threshold, `0` elsewhere. -/
theorem k0_pay2_at (i : Fin 4096) :
    k0_pay2 (F := Ideal) v0 (ix2 r i) = maskR (fun i => v0 (ix2 r i)) i := by
  have hthr : broadcastTo S256x4096 (thrCol v0) broadcasts_S256x1_S256x4096 (ix2 r i) = thrR (fun i => v0 (ix2 r i)) :=
    (Cert.LibKeepdims.broadcastTo_a1_ab_apply _ _ r i).trans (thrCol_at v0 r)
  rw [pay2_eq]
  show ((((Ideal.cmp .ogt (k0_pay1 (F := Ideal) v0 (ix2 r i))
      (broadcastTo S256x4096 (thrCol v0) broadcasts_S256x1_S256x4096 (ix2 r i))).setWidth 32).toInt : ℝ) : EReal) = _
  rw [hthr, k0_pay1_at]
  exact bit_to_real _

/-- The ternary weights: entry `(r, i)` is the sign of the row's entry where kept, `0` elsewhere. -/
theorem k0_pay4_at (i : Fin 4096) :
    k0_pay4 (F := Ideal) v0 (ix2 r i) = ternR (fun i => v0 (ix2 r i)) i := by
  exact congrArg₂ (fun a b : EReal => a * b) (Ideal.jnp_sign_eq_sign_f32 (v0 (ix2 r i))) (k0_pay2_at v0 r i)

/-- The kept count's column at `(r, 0)`: the sum of the row's mask. -/
theorem cntCol_at :
    shapeCast S256x1 (multiReduction .add [1] S256 (k0_pay2 (F := Ideal) v0) 0x00000000#32 reduces_S256x4096_S256 (.inl rfl) rfl)
        shapeCasts_S256_S256x1 (ix2 r (0 : Fin 1))
      = ∑ i : Fin 4096, maskR (fun i => v0 (ix2 r i)) i :=
  (laneSumCol_at r (k0_pay2 (F := Ideal) v0)).trans (Finset.sum_congr rfl fun d _ => k0_pay2_at v0 r d)

/-- The kept magnitudes' column at `(r, 0)`: the sum of the row's magnitudes times its mask. -/
theorem numCol_at :
    shapeCast S256x1
        (multiReduction .add [1] S256 (mulf (k0_pay1 (F := Ideal) v0) (k0_pay2 (F := Ideal) v0)) 0x00000000#32
          reduces_S256x4096_S256 (.inl rfl) rfl)
        shapeCasts_S256_S256x1 (ix2 r (0 : Fin 1))
      = ∑ i : Fin 4096, absR (fun i => v0 (ix2 r i)) i * maskR (fun i => v0 (ix2 r i)) i :=
  (laneSumCol_at r (mulf (k0_pay1 (F := Ideal) v0) (k0_pay2 (F := Ideal) v0))).trans
    (Finset.sum_congr rfl fun d _ => congrArg (absR (fun i => v0 (ix2 r i)) d * ·) (k0_pay2_at v0 r d))

/-- The scale column: entry `(r, 0)` is the row's scale. -/
theorem k0_pay3_at :
    k0_pay3 (F := Ideal) v0 (ix2 r (0 : Fin 1)) = scaleR (fun i => v0 (ix2 r i)) :=
  congrArg₂ (fun a b => Ideal.div a (max b (Ideal.ofBits .f32 0x3F800000#32))) (numCol_at v0 r) (cntCol_at v0 r)

end Cert.KernelIdeal.Pay

end
-- ==== Proof.Value0.lean ====
/-
  The quantizing region's two result arrays after the run, each as one function of the weights as the region finds them:
  entry `(ρ, i)` of the ternary array is the ternary weight of weight row `ρ` at `i`, entry `(ρ, 0)` of the scale column is
  that row's scale. A grid point `t` holds rows `256 t … 256 t + 255`; what it writes back is its block of those functions,
  and the 64 blocks tile each array.
-/
import proofs.«162674_j51814485459451_2_alg».proof.Proof.FrameKernelIdeal.Region0
import proofs.«162674_j51814485459451_2_alg».proof.Proof.Pay0
import proofs.«162674_j51814485459451_2_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frm Cert.KernelIdeal.Pay
open Cert.Tern

variable (V : (c : Dev nD) → (b : Ref sig .tc) → Buf (Elt Ideal) ((c : Thread nD τ).loc b))

theorem zero_offsets : (![0, 0] : Fin 2 → Nat) = fun _ => 0 := funext fun a => by fin_cases a <;> rfl

/-- The ternary array as a function of the weights. -/
abbrev ternOf (wArr : S16384x4096.Idx → EReal) : S16384x4096.Idx → EReal :=
  fun j => ternR (fun k => wArr (ix2 (n0 := 16384) (j 0) k)) (j 1)

/-- The scale column as a function of the weights. -/
abbrev scaleOf (wArr : S16384x4096.Idx → EReal) : S16384x1.Idx → EReal :=
  fun j => scaleR (fun k => wArr (ix2 (n0 := 16384) (j 0) k))

/-! ### One block, over variables -/

/-- The ternary payload of a block whose rows are rows `256 tv + r` of the weights, at an entry. -/
theorem tern_block (v0 : Vec Ideal S256x4096 .f32) (wArr : S16384x4096.Idx → EReal) (tv : Nat)
    (hv : ∀ (r : Fin 256) (k : Fin 4096) (i : S16384x4096.Idx), (i 0).val = tv * 256 + r.val → (i 1).val = k.val →
      v0 (ix2 r k) = wArr i)
    (y : S256x4096.Idx) (i : S16384x4096.Idx) (h0 : (i 0).val = tv * 256 + (y 0).val) (h1 : (i 1).val = (y 1).val) :
    k0_pay4 (F := Ideal) v0 y = ternOf wArr i := by
  obtain ⟨r, q, rfl⟩ : ∃ (r : Fin 256) (q : Fin 4096), y = ix2 r q := ⟨y 0, y 1, eq_ix2 y⟩
  rw [k0_pay4_at]
  have hrow : (fun k => v0 (ix2 r k)) = fun k => wArr (ix2 (n0 := 16384) (i 0) k) :=
    funext fun k => hv r k (ix2 (n0 := 16384) (i 0) k) h0 rfl
  have hq : q = (i 1 : Fin 4096) := Fin.ext h1.symm
  rw [hrow, hq]

/-- The scale payload of such a block, at an entry. -/
theorem scale_block (v0 : Vec Ideal S256x4096 .f32) (wArr : S16384x4096.Idx → EReal) (tv : Nat)
    (hv : ∀ (r : Fin 256) (k : Fin 4096) (i : S16384x4096.Idx), (i 0).val = tv * 256 + r.val → (i 1).val = k.val →
      v0 (ix2 r k) = wArr i)
    (y : S256x1.Idx) (i : S16384x1.Idx) (h0 : (i 0).val = tv * 256 + (y 0).val) :
    k0_pay3 (F := Ideal) v0 y = scaleOf wArr i := by
  obtain ⟨r, z, rfl⟩ : ∃ (r : Fin 256) (z : Fin 1), y = ix2 r z := ⟨y 0, y 1, eq_ix2 y⟩
  obtain rfl : z = 0 := Subsingleton.elim _ _
  rw [k0_pay3_at]
  have hrow : (fun k => v0 (ix2 r k)) = fun k => wArr (ix2 (n0 := 16384) (i 0) k) :=
    funext fun k => hv r k (ix2 (n0 := 16384) (i 0) k) h0 rfl
  rw [hrow]

/-! ### The printed index maps, decided over the grid -/

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input block at point `t` is rows `256 t … 256 t + 255` of the weights. -/
theorem iblk0_at (c : Dev nD) (t : Fin cfg0.N) (r : Fin 256) (k : Fin 4096) (i : S16384x4096.Idx)
    (h0 : (i 0).val = t.val * 256 + r.val) (h1 : (i 1).val = k.val) :
    (iblk0 V c 0 t : Vec Ideal S256x4096 .f32) (ix2 r k) = (V c main_arg1 : S16384x4096.Idx → EReal) i := by
  obtain ⟨e0, e1, -⟩ := idx_facts t
  unfold iblk0
  rw [View.read_apply]
  show V c main_arg1 _ = V c main_arg1 _
  congr 1
  funext a
  apply Fin.ext
  match a with
  | ⟨0, _⟩ => show win0_0.index t (0 : Fin 2) * 256 + 1 * r.val = (i 0).val; rw [e0, h0]; omega
  | ⟨1, _⟩ => show win0_0.index t (1 : Fin 2) * 4096 + 1 * k.val = (i 1).val; rw [e1, h1]; omega

/-! ### What a point writes back -/

theorem tern_flushed (c : Dev nD) (t : Fin cfg0.N) :
    (dat0 V c).flushed 1 t = ((cfg0.win 1).blk t).view.read (Elt Ideal) (ternOf (V c main_arg1)) := by
  show (cfg0.win 1).cut (grid0.coords t) ((dat0 V c).after 1 t) = _
  rw [after0_1]
  unfold out0_1
  rw [View.canon_unit_zero zero_offsets]
  simp only [View.ld_unit_zero (S := S256x4096) zero_offsets]
  obtain ⟨-, -, e0, e1, -⟩ := idx_facts t
  funext y
  show k0_pay4 (F := Ideal) (iblk0 V c 0 t) y = ternOf (V c main_arg1) (((cfg0.win 1).blk t).view.emb y)
  refine tern_block (iblk0 V c 0 t) (V c main_arg1) t.val (fun r k i h0 h1 => iblk0_at V c t r k i h0 h1) y _ ?_ ?_
  · show win0_1.index t (0 : Fin 2) * 256 + 1 * (y 0).val = _; rw [e0]; omega
  · show win0_1.index t (1 : Fin 2) * 4096 + 1 * (y 1).val = _; rw [e1]; omega

theorem scale_flushed (c : Dev nD) (t : Fin cfg0.N) :
    (dat0 V c).flushed 2 t = ((cfg0.win 2).blk t).view.read (Elt Ideal) (scaleOf (V c main_arg1)) := by
  show (cfg0.win 2).cut (grid0.coords t) ((dat0 V c).after 2 t) = _
  rw [after0_2]
  unfold out0_2
  rw [View.canon_unit_zero zero_offsets]
  simp only [View.ld_unit_zero (S := S256x4096) zero_offsets]
  obtain ⟨-, -, -, -, e0, e1⟩ := idx_facts t
  funext y
  show k0_pay3 (F := Ideal) (iblk0 V c 0 t) y = scaleOf (V c main_arg1) (((cfg0.win 2).blk t).view.emb y)
  refine scale_block (iblk0 V c 0 t) (V c main_arg1) t.val (fun r k i h0 h1 => iblk0_at V c t r k i h0 h1) y _ ?_
  show win0_2.index t (0 : Fin 2) * 256 + 1 * (y 0).val = _; rw [e0]; omega

/-! ### The blocks tile the arrays -/

theorem tern_mem_blk (t : Fin cfg0.N) (i : S16384x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0_0).slice (win0_1.rect t)).set ↔ _
  rw [View.set_slice_whole, Rect.mem_set_unit]
  exact Iff.rfl

theorem scale_mem_blk (t : Fin cfg0.N) (i : S16384x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v0_1).slice (win0_2.rect t)).set ↔ _
  rw [View.set_slice_whole, Rect.mem_set_unit]
  exact Iff.rfl

theorem tern_cover (i : S16384x4096.Idx) :
    ∃ t : Fin cfg0.N, (cfg0.win 1).flush t = true ∧ i ∈ ((cfg0.win 1).blk t).view.set := by
  have hN : grid0.N = 64 := N_0
  have hi0 : (i 0).val < 16384 := (i 0).isLt
  have hi1 : (i 1).val < 4096 := (i 1).isLt
  let t : Fin cfg0.N := ⟨(i 0).val / 256, by show (i 0).val / 256 < grid0.N; omega⟩
  obtain ⟨-, -, e0, e1, -⟩ := idx_facts t
  refine ⟨t, flush0_1 t, ?_⟩
  rw [tern_mem_blk]
  intro a
  match a with
  | ⟨0, _⟩ => show win0_1.index t (0 : Fin 2) * 256 ≤ (i 0).val ∧ (i 0).val < win0_1.index t (0 : Fin 2) * 256 + 256; rw [e0]; show (i 0).val / 256 * 256 ≤ (i 0).val ∧ (i 0).val < (i 0).val / 256 * 256 + 256; omega
  | ⟨1, _⟩ => show win0_1.index t (1 : Fin 2) * 4096 ≤ (i 1).val ∧ (i 1).val < win0_1.index t (1 : Fin 2) * 4096 + 4096; rw [e1]; omega

theorem scale_cover (i : S16384x1.Idx) :
    ∃ t : Fin cfg0.N, (cfg0.win 2).flush t = true ∧ i ∈ ((cfg0.win 2).blk t).view.set := by
  have hN : grid0.N = 64 := N_0
  have hi0 : (i 0).val < 16384 := (i 0).isLt
  have hi1 : (i 1).val < 1 := (i 1).isLt
  let t : Fin cfg0.N := ⟨(i 0).val / 256, by show (i 0).val / 256 < grid0.N; omega⟩
  obtain ⟨-, -, -, -, e0, e1⟩ := idx_facts t
  refine ⟨t, flush0_2 t, ?_⟩
  rw [scale_mem_blk]
  intro a
  match a with
  | ⟨0, _⟩ => show win0_2.index t (0 : Fin 2) * 256 ≤ (i 0).val ∧ (i 0).val < win0_2.index t (0 : Fin 2) * 256 + 256; rw [e0]; show (i 0).val / 256 * 256 ≤ (i 0).val ∧ (i 0).val < (i 0).val / 256 * 256 + 256; omega
  | ⟨1, _⟩ => show win0_2.index t (1 : Fin 2) * 1 ≤ (i 1).val ∧ (i 1).val < win0_2.index t (1 : Fin 2) * 1 + 1; rw [e1]; omega

/-! ### The arrays after the run -/

/-- The ternary array ends holding every weight row's ternary weights. -/
theorem tern_final (c : Dev nD) :
    ((dat0 V c).arrAt 1 cfg0.N : S16384x4096.Idx → EReal)
      = fun j => ternR (fun k => (V c main_arg1 : S16384x4096.Idx → EReal) (ix2 (n0 := 16384) (j 0) k)) (j 1) :=
  (dat0 V c).arrAt_eq_of_cover 1 (ternOf (V c main_arg1)) (fun t _ => tern_flushed V c t) tern_cover

/-- The scale column ends holding every weight row's scale. -/
theorem scale_final (c : Dev nD) :
    ((dat0 V c).arrAt 2 cfg0.N : S16384x1.Idx → EReal)
      = fun j => scaleR (fun k => (V c main_arg1 : S16384x4096.Idx → EReal) (ix2 (n0 := 16384) (j 0) k)) :=
  (dat0 V c).arrAt_eq_of_cover 2 (scaleOf (V c main_arg1)) (fun t _ => scale_flushed V c t) scale_cover

end Cert.KernelIdeal.Val

end
-- ==== Proof.Bridge.lean ====
/-
  From the contents followed to the last boundary to the specification's kernel arrangement, on the extended reals.
  The matrix-product region reads four arrays the host operations and the quantizing region left: the activations
  (narrowed, so unchanged), the ternary weights and the scale column of the quantizing region's result (the scale
  laid out as a row), and the bias laid out as a row. Each is a function of the launch memory's three arguments;
  put into the region's result they give, entry by entry, the kernel arrangement of the specification: the
  contraction of a row of activations with a row of ternary weights accumulated over four blocks from zero, times
  the weight row's scale, plus its bias.
-/
import proofs.«162674_j51814485459451_2_alg».proof.Proof.FrameKernelIdeal.Kept
import proofs.«162674_j51814485459451_2_alg».proof.Proof.HostMid
import proofs.«162674_j51814485459451_2_alg».proof.Proof.Value0
import proofs.«162674_j51814485459451_2_alg».proof.Proof.Value1
import proofs.«162674_j51814485459451_2_alg».proof.Proof.Spec
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frm Cert.KernelIdeal.Val Cert.Tern

variable (m : (ℓ : Loc nD τ sig) → Buf (Elt Ideal) ℓ) (ρ : Dev nD → PrngReg) (c : Dev nD)

/-- The three arguments in the launch memory, as plain index functions. -/
abbrev xArr : S8192x4096.Idx → EReal := m ((c : Thread nD τ).loc main_arg0)
abbrev wArr : S16384x4096.Idx → EReal := m ((c : Thread nD τ).loc main_arg1)
abbrev bArr : S16384.Idx → EReal := m ((c : Thread nD τ).loc main_arg2)

/-- The activations the region reads are the argument's. -/
theorem Xa_eq : Xa (V2 (F := Ideal) m ρ) c = xArr m c :=
  funext fun i => (after_v3 (W1 (F := Ideal) m ρ c) i).trans (congrFun (W1_main_arg0 (F := Ideal) m ρ c) i)

/-- The ternary weights the region reads are each weight row's ternary row. -/
theorem Ta_eq : Ta (V2 (F := Ideal) m ρ) c
    = fun j => ternR (fun k => wArr m c (ix2 (n0 := 16384) (j 0) k)) (j 1) :=
  (after_v0_0 (W1 (F := Ideal) m ρ c)).trans ((W1_main_v0_0 (F := Ideal) m ρ c).trans (tern_final (V0 (F := Ideal) m ρ) c))

/-- The scale row at column `q` is weight row `q`'s scale. -/
theorem Sa_at (q : Fin 16384) : Sa (V2 (F := Ideal) m ρ) c (ix2 (0 : Fin 1) q)
    = scaleR (fun k => wArr m c (ix2 (n0 := 16384) q k)) :=
  (after_v2 (W1 (F := Ideal) m ρ c) q).trans
    (congrFun ((W1_main_v0_1 (F := Ideal) m ρ c).trans (scale_final (V0 (F := Ideal) m ρ) c)) (ix2 q (0 : Fin 1)))

/-- The bias row at column `q` is the bias argument at `q`. -/
theorem Ba_at (q : Fin 16384) : Ba (V2 (F := Ideal) m ρ) c (ix2 (0 : Fin 1) q) = bArr m c (ix1 q) :=
  (after_v4 (W1 (F := Ideal) m ρ c) q).trans (congrFun (W1_main_arg2 (F := Ideal) m ρ c) (ix1 q))

/-- The contraction's terms for output entry `(p, q)`: activation times ternary weight. -/
theorem terms_eq (p : Fin 8192) (q : Fin 16384) : terms (V2 (F := Ideal) m ρ) c p q
    = fun i => xArr m c (ix2 (n0 := 8192) p i) * ternR (fun k => wArr m c (ix2 (n0 := 16384) q k)) i := by
  funext i
  unfold terms
  rw [Xa_eq, Ta_eq]

/-- The region's result at `(p, q)`, from the launch memory. -/
theorem G1_core (p : Fin 8192) (q : Fin 16384) :
    accAt (terms (V2 (F := Ideal) m ρ) c p q) * Sa (V2 (F := Ideal) m ρ) c (ix2 (0 : Fin 1) q)
        + Ba (V2 (F := Ideal) m ρ) c (ix2 (0 : Fin 1) q)
      = kerAt (fun k => xArr m c (ix2 (n0 := 8192) p k)) (fun k => wArr m c (ix2 (n0 := 16384) q k)) (bArr m c (ix1 q)) := by
  rw [terms_eq, Sa_at, Ba_at]
  rfl

/-- THE BRIDGE: the array the matrix-product region's result ends holding is, entry by entry, the specification's
    kernel arrangement of the launch memory's activations, weights and bias. -/
theorem G1_eq_kerAt : G1 (V2 (F := Ideal) m ρ) c
    = fun i => kerAt (fun k => xArr m c (ix2 (n0 := 8192) (i 0) k)) (fun k => wArr m c (ix2 (n0 := 16384) (i 1) k))
        (bArr m c (ix1 (n := 16384) (i 1))) :=
  funext fun i => G1_core m ρ c (i 0) (i 1)

end Cert.KernelIdeal.Val

end
-- ==== Proof.ClaimAlgebraic.lean ====
/-
  The last claim: at the extended reals the kernel program and the reference, run from memories that agree on the
  three arguments, end with the same result array.
  The kernel program's array is read off its run: the matrix-product region leaves, at entry (p, q), the four
  blocks of the contraction of row p of the activations with the ternary row q accumulated from zero, times row
  q's scale, plus the bias at q — the ternary rows and scales being what the quantizing region wrote from the
  weights. The reference's array is its run's term read at (p, q): the contraction of row p with the scaled ternary
  row q, plus the bias. Every entry of the arguments being a real number (the precondition), every ternary weight
  and every scale is a real number, so the factor moves across the sum and the blocks regroup: the two agree.
-/
import proofs.«162674_j51814485459451_2_alg».proof.Proof.ClaimsFrames
import proofs.«162674_j51814485459451_2_alg».proof.Proof.RefSide
import proofs.«162674_j51814485459451_2_alg».proof.Proof.Law
import proofs.«162674_j51814485459451_2_alg».proof.Proof.Finite
import proofs.«162674_j51814485459451_2_alg».proof.Proof.Value1b
import proofs.«162674_j51814485459451_2_alg».proof.Proof.Bridge

noncomputable section

namespace Cert.Proof.Parts

open Idealize.ShloMosaic Idealize.SL.Sem Idealize.ShloMosaic.TcCoe

/-- The kernel program's run at the extended reals with its result array named: the last boundary's contents of
    the result buffer; the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v5) = Cert.KernelIdeal.Frm.W3 (F := Ideal) m ρ c (Proc.devRef .tc Cert.KernelIdeal.main_v5)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun r h c =>
    ⟨h c _ (Cert.KernelIdeal.Frm.mem_uc Cert.KernelIdeal.main_v5 (by decide)),
     (h c _ (Cert.KernelIdeal.Frm.mem_uc Cert.KernelIdeal.main_arg0 (by decide))).trans (Cert.KernelIdeal.Frm.W3_main_arg0 m ρ c),
     (h c _ (Cert.KernelIdeal.Frm.mem_uc Cert.KernelIdeal.main_arg1 (by decide))).trans (Cert.KernelIdeal.Frm.W3_main_arg1 m ρ c),
     (h c _ (Cert.KernelIdeal.Frm.mem_uc Cert.KernelIdeal.main_arg2 (by decide))).trans (Cert.KernelIdeal.Frm.W3_main_arg2 m ρ c)⟩)
    (Cert.KernelIdeal.Frm.run_all (F := Ideal) m ρ)

/-- The kernel program's result array, entry by entry, is the reference's arrangement of the same entry, when
    every entry of the arguments is a real number. -/
theorem kernel_value (m : (ℓ : Loc Cert.KernelIdeal.nD Cert.KernelIdeal.τ Cert.KernelIdeal.sig) → Buf (Elt Ideal) ℓ) (ρ : Dev Cert.KernelIdeal.nD → PrngReg)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = fun _ => 1#1) :
    (Cert.KernelIdeal.Frm.W3 (F := Ideal) m ρ c (Proc.devRef .tc Cert.KernelIdeal.main_v5) : Cert.KernelIdeal.S8192x16384.Idx → EReal)
      = Cert.ReferenceIdeal.Read.val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  obtain ⟨hx, hw, hb⟩ := Cert.Tern.Finite.reals_of_pre _ _ _ hpre
  rw [Cert.KernelIdeal.Frm.W3_main_v5, Cert.KernelIdeal.Val.final1, Cert.KernelIdeal.Val.G1_eq_kerAt, Cert.ReferenceIdeal.RefSide.result_eq]
  funext i
  exact Cert.Tern.kerAt_eq_refAt _ _ _ (fun k => hx _) (fun k => hw _)

theorem algebraic : Cert.algebraic_KernelIdeal_ReferenceIdeal := by
  intro m ρ m' ρ' hpre hagree
  refine ⟨fun c => Cert.KernelIdeal.Frm.W3 (F := Ideal) m ρ c (Proc.devRef .tc Cert.KernelIdeal.main_v5), kernel_run m ρ, ?_⟩
  refine (θ_run Cert.ReferenceIdeal.defs _ _).mono (fun r h c => ⟨(h c).1.trans ?_, (h c).2⟩)
    (Cert.ReferenceIdeal.Value.run (F := Ideal) m' ρ')
  rw [(hagree c).1, (hagree c).2.1, (hagree c).2.2, Cert.ReferenceIdeal.Read.val_main_v24_eq]
  exact (kernel_value m ρ c (hpre c)).symm

end Cert.Proof.Parts

end
-- ==== Proof.lean ====
/-
  A ternary-quantized linear layer: every weight row is replaced by its signs where the magnitude exceeds a
  twentieth of the row's mean magnitude (zero elsewhere) and one scale, the mean of the kept magnitudes; the layer's
  output is the activations contracted with the ternary rows, times the scales, plus the bias. The kernel program
  quantizes in one launch and multiplies in a second, accumulating four blocks of the contraction and scaling at
  the end; the reference scales each ternary weight first and contracts once. On real inputs the two are one
  function. The claims are proved in the modules imported here; this file joins them.
-/
import proofs.«162674_j51814485459451_2_alg».proof.Proof.ClaimsFrames
import proofs.«162674_j51814485459451_2_alg».proof.Proof.ClaimAlgebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves, Parts.algebraic⟩

end Cert.Proof

end
